-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S32x2 .f32) (main_v50 : FVec F S32x2 .f32) : IVec S_ 1 :=
  let main_v51 : IVec S32x2 1 := cmpf .olt main_v49 main_v50
  let main_c_19 : IVec S_ 1 := constantI S_ 1 1#1
  let main_v52 : IVec S_ 1 := (fun x v => Host.reduce IntOp.andi x v reducesTo_S32x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S64x32 .f32) (main_arg9 : FVec F S32 .f32) (main_arg10 : FVec F S64x32 .f32) (main_arg11 : FVec F S32x2 .f32) (main_arg12 : FVec F S2 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32x2 .f32 := Host.absf main_arg11
  let main_cst_18 : FVec F S_ .f32 := constant S_ .f32 0x7F800000#32
  let main_v50 : FVec F S32x2 .f32 := broadcastInDim S32x2 ![] bcast_S_S32x2 main_cst_18
  fn_part3 (F := F) main_arg12 main_v48 main_v49 main_v50

def fn_part1 {F : FTy → Type} [FloatOps F] (main_arg5 : FVec F S128x64 .f32) (main_arg6 : FVec F S64 .f32) (main_arg7 : FVec F S128x64 .f32) (main_arg8 : FVec F S64x32 .f32) (main_arg9 : FVec F S32 .f32) (main_arg10 : FVec F S64x32 .f32) (main_arg11 : FVec F S32x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S64x32 .f32) (main_arg9 : FVec F S32 .f32) (main_arg10 : FVec F S64x32 .f32) (main_arg11 : FVec F S32x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x64 : Shape := ⟨2, ![1, 64]⟩
abbrev S100000x64 : Shape := ⟨2, ![100000, 64]⟩
abbrev S4000x64 : Shape := ⟨2, ![4000, 64]⟩
abbrev S1600000x64 : Shape := ⟨2, ![1600000, 64]⟩
abbrev S1x32 : Shape := ⟨2, ![1, 32]⟩
abbrev S1x2 : Shape := ⟨2, ![1, 2]⟩
abbrev S100000x2 : Shape := ⟨2, ![100000, 2]⟩
abbrev S4000x2 : Shape := ⟨2, ![4000, 2]⟩
abbrev S4000x32 : Shape := ⟨2, ![4000, 32]⟩

abbrev nBuf : Space → Nat
  | .hbm => 89
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x32, .f32⟩
  | .hbm, ⟨9, _⟩ => ⟨S32, .f32⟩
  | .hbm, ⟨10, _⟩ => ⟨S64x32, .f32⟩
  | .hbm, ⟨11, _⟩ => ⟨S32x2, .f32⟩
  | .hbm, ⟨12, _⟩ => ⟨S2, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S128x128, .bf16⟩
  | .hbm, ⟨46, _⟩ => ⟨S128x128, .bf16⟩
  | .hbm, ⟨47, _⟩ => ⟨S1x128, .f32⟩
  | .hbm, ⟨48, _⟩ => ⟨S100000x128, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S128x64, .bf16⟩
  | .hbm, ⟨65, _⟩ => ⟨S128x64, .bf16⟩
  | .hbm, ⟨66, _⟩ => ⟨S1x64, .f32⟩
  | .hbm, ⟨67, _⟩ => ⟨S100000x64, .f32⟩
  | .hbm, ⟨68, _⟩ => ⟨S100000x64, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .bf16⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S64x32, .bf16⟩
  | .hbm, ⟨84, _⟩ => ⟨S64x32, .bf16⟩
  | .hbm, ⟨85, _⟩ => ⟨S32x2, .bf16⟩
  | .hbm, ⟨86, _⟩ => ⟨S1x32, .f32⟩
  | .hbm, ⟨87, _⟩ => ⟨S1x2, .f32⟩
  | .hbm, ⟨88, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x64, .bf16⟩
  | .local _ .vmem, ⟨18, _⟩ => ⟨S1x64, .f32⟩
  | .local _ .vmem, ⟨19, _⟩ => ⟨S128x64, .bf16⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S64x32, .bf16⟩
  | .local _ .vmem, ⟨29, _⟩ => ⟨S1x32, .f32⟩
  | .local _ .vmem, ⟨30, _⟩ => ⟨S64x32, .bf16⟩
  | .local _ .vmem, ⟨31, _⟩ => ⟨S32x2, .bf16⟩
  | .local _ .vmem, ⟨32, _⟩ => ⟨S1x2, .f32⟩
  | .local _ .vmem, ⟨33, _⟩ => ⟨S4000x2, .f32⟩
  | .local _ .vmem, ⟨34, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x2 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S32_S1x32 : S32.ShapeCasts S1x32
  shapeCasts_S2_S1x2 : S2.ShapeCasts S1x2
  shapeCasts_S4000x64_S4000x64 : S4000x64.ShapeCasts S4000x64
  broadcasts_S4000x1_S4000x64 : S4000x1.Broadcasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x32_S4000x32_1_0_0_1_n_n_wf : DotDims.WF S4000x64 S64x32 S4000x32 [1] [0] [0] [1] [] []
  dot_S4000x32_S32x2_S4000x2_1_0_0_1_n_n_wf : DotDims.WF S4000x32 S32x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .bf16 = 32 ∨ (Rect.block (s := S64x32) S64x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .bf16 = 32 ∨ (Rect.block (s := S64x32) S64x32.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x2.size a ≤ S32x2.size a
  hwx2_6 : ∀ i : grid2.Coords, EltTy.bits .bf16 = 32 ∨ (Rect.block (s := S32x2) S32x2.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x2.size a ≤ S100000x2.size a
  hwx2_8 : ∀ i : grid2.Coords, EltTy.bits .f32 = 32 ∨ (Rect.block (s := S100000x2) S4000x2.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S32x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S4000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x64, .f32⟩
  | 6 => ⟨S64, .f32⟩
  | 7 => ⟨S128x64, .f32⟩
  | 8 => ⟨S64x32, .f32⟩
  | 9 => ⟨S32, .f32⟩
  | 10 => ⟨S64x32, .f32⟩
  | 11 => ⟨S32x2, .f32⟩
  | 12 => ⟨S2, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x1600000, .i32⟩
  | 52 => ⟨S1600000, .i32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S1x1600000, .i32⟩
  | 90 => ⟨S1600000, .i32⟩
  | 91 => ⟨S1x1600000, .i32⟩
  | 92 => ⟨S1600000, .i32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S_, .f32⟩
  | 107 => ⟨S1600000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x64, .f32⟩
  | 117 => ⟨S100000x64, .f32⟩
  | 118 => ⟨S100000x32, .f32⟩
  | 119 => ⟨S1x32, .f32⟩
  | 120 => ⟨S100000x32, .f32⟩
  | 121 => ⟨S100000x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S100000x2, .f32⟩
  | _ => ⟨S100000x128, .f32⟩

abbrev hbmTy0_1 (i : Nat) : BufTy := match i % 128 with
  | 0 => ⟨S1x2, .f32⟩
  | 1 => ⟨S100000x2, .f32⟩
  | 2 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelRun.lean ====
/-
  The kernel program's run with its result named.

  The program is three kernel regions among stretches of host operations. Its buffer contents at each boundary
  form a chain from the launch memory: after a stretch of host operations the contents are those operations applied
  to the contents before; after a region its output array holds what the region's grid points wrote back and every
  other buffer is as the region found it. Every weakly fair execution terminates in a state whose unscoped buffers
  hold the last contents of that chain; read at the result buffer this names the result, and read at an argument it
  gives back the launch contents, since nothing writes an argument.
-/
import proofs.«139145_j21492016349642_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, without a fault, with the result array at the
    last boundary's contents of the result buffer and every argument array as launched. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunValue

end
-- ==== Proof.LibSageLayer.lean ====
/-
  One mean-aggregation graph-convolution layer, and the final affine read-out, as functions of whole arrays
  over the extended reals.

  For node features h (M nodes, K channels), the neighbour sums a (M x K) and a per-node scale, a layer's output at
  node p and channel n is
      max( sum_k (a(p,k) scaled) * wl(k,n)  +  b(n)  +  sum_k h(p,k) * wr(k,n) , 0 ).
  Two arrangements of "scaled" occur: a(p,k) times a precomputed reciprocal column s(p) (`combine`, the bias as a
  1 x N row), and a(p,k) divided by the degree d(p) (`combineDiv`, the bias as a length-N vector). When s(p) is
  1 / d(p) and d(p) is not zero the two agree, because x * (1 / d) = x / d on the extended reals for every x
  (no finiteness needed: both sides are x times the inverse of d). The read-out is x(p,.) . w(.,n) + b(n).

  An output row depends only on the same row of a, of the scale and of h (`combine_rows`, `affine_rows`): this is
  what lets a computation done block of rows by block of rows be read as one whole-array function.
-/
import Idealize.ShloMosaic.Lib.ValueIdx
import Idealize.ShloMosaic.PureOps.Ideal

noncomputable section

open scoped BigOperators

namespace Cert.Sage

open Idealize.ShloMosaic Idealize.ShloMosaic.ValueIdx

/-- An M x N matrix of extended reals, indexed as the arrays of the programs are. -/
abbrev Mat (M N : ℕ) : Type := (⟨2, ![M, N]⟩ : Shape).Idx → EReal
/-- A length-N vector of extended reals. -/
abbrev Vc (N : ℕ) : Type := (⟨1, ![N]⟩ : Shape).Idx → EReal

/-- The matrix whose entry (p, n) is `g p n`. -/
def ofEntries {M N : ℕ} (g : Fin M → Fin N → EReal) : Mat M N :=
  fun i => g ⟨(i 0).val, idx2_lt0 i⟩ ⟨(i 1).val, idx2_lt1 i⟩

theorem ofEntries_apply {M N : ℕ} (g : Fin M → Fin N → EReal) (p : Fin M) (n : Fin N) :
    ofEntries g (ix2 p n) = g p n := rfl

/-- A layer with the neighbour sums multiplied by a reciprocal column `s` and the bias given as a 1 x N row. -/
def combine {M K N : ℕ} (a : Mat M K) (s : Mat M 1) (h : Mat M K) (wl : Mat K N) (b : Mat 1 N) (wr : Mat K N) :
    Mat M N :=
  ofEntries fun p n =>
    max (((∑ k : Fin K, (a (ix2 p k) * s (ix2 p (0 : Fin 1))) * wl (ix2 k n)) + b (ix2 (0 : Fin 1) n))
      + ∑ k : Fin K, h (ix2 p k) * wr (ix2 k n)) 0

/-- A layer with the neighbour sums divided by the degree vector `d` and the bias given as a length-N vector. -/
def combineDiv {M K N : ℕ} (a : Mat M K) (d : Vc M) (h : Mat M K) (wl : Mat K N) (b : Vc N) (wr : Mat K N) :
    Mat M N :=
  ofEntries fun p n =>
    max (((∑ k : Fin K, Ideal.div (a (ix2 p k)) (d (ix1 p)) * wl (ix2 k n)) + b (ix1 n))
      + ∑ k : Fin K, h (ix2 p k) * wr (ix2 k n)) 0

/-- The read-out x . w + b with the bias given as a 1 x N row. -/
def affine {M J N : ℕ} (x : Mat M J) (w : Mat J N) (b : Mat 1 N) : Mat M N :=
  ofEntries fun p n => (∑ j : Fin J, x (ix2 p j) * w (ix2 j n)) + b (ix2 (0 : Fin 1) n)

/-- The read-out x . w + b with the bias given as a length-N vector. -/
def affineVec {M J N : ℕ} (x : Mat M J) (w : Mat J N) (b : Vc N) : Mat M N :=
  ofEntries fun p n => (∑ j : Fin J, x (ix2 p j) * w (ix2 j n)) + b (ix1 n)

theorem combine_apply {M K N : ℕ} (a : Mat M K) (s : Mat M 1) (h : Mat M K) (wl : Mat K N) (b : Mat 1 N)
    (wr : Mat K N) (p : Fin M) (n : Fin N) :
    combine a s h wl b wr (ix2 p n)
      = max (((∑ k : Fin K, (a (ix2 p k) * s (ix2 p (0 : Fin 1))) * wl (ix2 k n)) + b (ix2 (0 : Fin 1) n))
          + ∑ k : Fin K, h (ix2 p k) * wr (ix2 k n)) 0 := rfl

theorem combineDiv_apply {M K N : ℕ} (a : Mat M K) (d : Vc M) (h : Mat M K) (wl : Mat K N) (b : Vc N)
    (wr : Mat K N) (p : Fin M) (n : Fin N) :
    combineDiv a d h wl b wr (ix2 p n)
      = max (((∑ k : Fin K, Ideal.div (a (ix2 p k)) (d (ix1 p)) * wl (ix2 k n)) + b (ix1 n))
          + ∑ k : Fin K, h (ix2 p k) * wr (ix2 k n)) 0 := rfl

theorem affine_apply {M J N : ℕ} (x : Mat M J) (w : Mat J N) (b : Mat 1 N) (p : Fin M) (n : Fin N) :
    affine x w b (ix2 p n) = (∑ j : Fin J, x (ix2 p j) * w (ix2 j n)) + b (ix2 (0 : Fin 1) n) := rfl

theorem affineVec_apply {M J N : ℕ} (x : Mat M J) (w : Mat J N) (b : Vc N) (p : Fin M) (n : Fin N) :
    affineVec x w b (ix2 p n) = (∑ j : Fin J, x (ix2 p j) * w (ix2 j n)) + b (ix1 n) := rfl

/-- On the extended reals, multiplying by the quotient 1 / d is dividing by d, for every d other than zero. -/
theorem mul_one_div (x d : EReal) (hd : d ≠ 0) : x * Ideal.div 1 d = Ideal.div x d := by
  unfold Ideal.div
  rw [if_neg hd, if_neg hd, one_mul]

/-- The two arrangements of a layer agree when the reciprocal column is 1 / d with d nowhere zero and the bias row
    holds the bias vector. -/
theorem combine_eq_combineDiv {M K N : ℕ} (a : Mat M K) (s : Mat M 1) (d : Vc M) (h : Mat M K) (wl : Mat K N)
    (b : Mat 1 N) (b' : Vc N) (wr : Mat K N)
    (hs : ∀ p : Fin M, s (ix2 p (0 : Fin 1)) = Ideal.div 1 (d (ix1 p))) (hd : ∀ p : Fin M, d (ix1 p) ≠ 0)
    (hb : ∀ n : Fin N, b (ix2 (0 : Fin 1) n) = b' (ix1 n)) :
    combine a s h wl b wr = combineDiv a d h wl b' wr := by
  funext i
  obtain ⟨p, n, rfl⟩ : ∃ (p : Fin M) (n : Fin N), i = ix2 p n := ⟨i 0, i 1, eq_ix2 i⟩
  rw [combine_apply, combineDiv_apply, hb]
  congr 3
  refine Finset.sum_congr rfl fun k _ => ?_
  rw [hs, mul_one_div _ _ (hd _)]

/-- The two forms of the read-out agree when the bias row holds the bias vector. -/
theorem affine_eq_affineVec {M J N : ℕ} (x : Mat M J) (w : Mat J N) (b : Mat 1 N) (b' : Vc N)
    (hb : ∀ n : Fin N, b (ix2 (0 : Fin 1) n) = b' (ix1 n)) : affine x w b = affineVec x w b' := by
  funext i
  obtain ⟨p, n, rfl⟩ : ∃ (p : Fin M) (n : Fin N), i = ix2 p n := ⟨i 0, i 1, eq_ix2 i⟩
  rw [affine_apply, affineVec_apply, hb]

/-- A layer's row p depends only on row p of the neighbour sums, of the reciprocal column and of the features:
    computed from the rows `f p` of larger arrays it is row `f p` of the layer of those arrays. -/
theorem combine_rows {M M' K N : ℕ} (f : Fin M → Fin M') (a : Mat M K) (s : Mat M 1) (h : Mat M K)
    (a' : Mat M' K) (s' : Mat M' 1) (h' : Mat M' K) (wl : Mat K N) (b : Mat 1 N) (wr : Mat K N)
    (ha : ∀ p k, a (ix2 p k) = a' (ix2 (f p) k)) (hs : ∀ p, s (ix2 p (0 : Fin 1)) = s' (ix2 (f p) (0 : Fin 1)))
    (hh : ∀ p k, h (ix2 p k) = h' (ix2 (f p) k)) (p : Fin M) (n : Fin N) :
    combine a s h wl b wr (ix2 p n) = combine a' s' h' wl b wr (ix2 (f p) n) := by
  rw [combine_apply, combine_apply, hs]
  simp only [ha, hh]

/-- The read-out's row p depends only on row p of its input. -/
theorem affine_rows {M M' J N : ℕ} (f : Fin M → Fin M') (x : Mat M J) (x' : Mat M' J) (w : Mat J N) (b : Mat 1 N)
    (hx : ∀ p j, x (ix2 p j) = x' (ix2 (f p) j)) (p : Fin M) (n : Fin N) :
    affine x w b (ix2 p n) = affine x' w b (ix2 (f p) n) := by
  rw [affine_apply, affine_apply]
  simp only [hx]

end Cert.Sage

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.KernelPayload.lean ====
/-
  The arithmetic of each block body, as a function of the whole blocks it reads, over the extended reals.

  A layer's block body scales the neighbour sums a (M x K) by a column s (M x 1) repeated along every row, multiplies
  the result by the left weights wl (K x N) into a zero matrix, adds the bias row b (1 x N) repeated down the rows,
  adds the product of the features h (M x K) and the right weights wr (K x N), and takes the maximum with zero. Over
  the extended reals a change of float format is the identity and a re-arrangement of a matrix to its own shape
  changes nothing, so at entry (p, n) this is
      max( sum_k (a(p,k) * s(p)) * wl(k,n)  +  b(n)  +  sum_k h(p,k) * wr(k,n) , 0 ),
  the layer `combine`. The last body feeds that matrix through one more product and bias row, the read-out `affine`.
  Both facts are proved once for arbitrary extents and used at the three bodies' extents.
-/
import proofs.«139145_j21492016349642_2_alg».proof.Proof.Gen.KernelIdeal.Skeleton
import proofs.«139145_j21492016349642_2_alg».proof.Proof.LibSageLayer
import proofs.«139145_j21492016349642_2_alg».proof.Proof.LibPlainMatmul
import proofs.«139145_j21492016349642_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Pay

open Idealize.ShloMosaic Idealize.ShloMosaic.ValueIdx Cert.KernelIdeal Cert.KernelIdeal.Gen

/-- One layer, for any extents: the scaled neighbour sums times the left weights into a zero matrix, plus the bias row
    repeated down the rows, plus the features times the right weights into a zero matrix, the maximum of that with zero,
    read at entry (p, n), is the layer `combine` there. The features enter as any matrix `h'` with the entries of
    `h` (a body may pass them through a re-arrangement to their own shape first, or not). -/
theorem layer_apply {M K N : ℕ} (D : DotDims ⟨2, ![M, K]⟩ ⟨2, ![K, N]⟩ ⟨2, ![M, N]⟩) (hD : D = DotDims.plain M K N)
    (hcA : (⟨2, ![M, K]⟩ : Shape).ShapeCasts ⟨2, ![M, K]⟩) (hcS : (⟨2, ![M, 1]⟩ : Shape).ShapeCasts ⟨2, ![M, 1]⟩)
    (hcW : (⟨2, ![K, N]⟩ : Shape).ShapeCasts ⟨2, ![K, N]⟩) (hcB : (⟨2, ![1, N]⟩ : Shape).ShapeCasts ⟨2, ![1, N]⟩)
    (hbS : (⟨2, ![M, 1]⟩ : Shape).Broadcasts ⟨2, ![M, K]⟩) (hbB : (⟨2, ![1, N]⟩ : Shape).Broadcasts ⟨2, ![M, N]⟩)
    (ht : FTy.bits .bf16 < FTy.bits .f32)
    (a : FVec Ideal ⟨2, ![M, K]⟩ .f32) (s : FVec Ideal ⟨2, ![M, 1]⟩ .f32) (h h' : FVec Ideal ⟨2, ![M, K]⟩ .f32)
    (wl wr : FVec Ideal ⟨2, ![K, N]⟩ .bf16) (b : FVec Ideal ⟨2, ![1, N]⟩ .f32) (hh : ∀ i, h' i = h i)
    (p : Fin M) (n : Fin N) :
    maximumf
        (addf
          (addf
            (matmul D none
              (truncf .bf16
                (mulf (shapeCast ⟨2, ![M, K]⟩ a hcA) (broadcastTo ⟨2, ![M, K]⟩ (shapeCast ⟨2, ![M, 1]⟩ s hcS) hbS)) ht)
              (shapeCast ⟨2, ![K, N]⟩ wl hcW) (constant (F := Ideal) ⟨2, ![M, N]⟩ .f32 0x00000000#32))
            (broadcastTo ⟨2, ![M, N]⟩ (shapeCast ⟨2, ![1, N]⟩ b hcB) hbB))
          (matmul D none (truncf .bf16 h' ht) (shapeCast ⟨2, ![K, N]⟩ wr hcW)
            (constant (F := Ideal) ⟨2, ![M, N]⟩ .f32 0x00000000#32)))
        (broadcast ⟨2, ![M, N]⟩ (Scalar.ofBits .f32 0x00000000#32 : Ideal .f32)) (ix2 p n)
      = Cert.Sage.combine a s h wl b wr (ix2 p n) := by
  -- the two products at (p, n) as sums over the contraction index, and the bias row at (p, n)
  have e1 := Cert.LibPlainMatmul.matmul_eq_plain_zero_apply D hD none
    (truncf .bf16 (mulf (shapeCast ⟨2, ![M, K]⟩ a hcA) (broadcastTo ⟨2, ![M, K]⟩ (shapeCast ⟨2, ![M, 1]⟩ s hcS) hbS)) ht)
    (shapeCast ⟨2, ![K, N]⟩ wl hcW) p n
  have e2 := Cert.LibPlainMatmul.matmul_eq_plain_zero_apply D hD none (truncf .bf16 h' ht)
    (shapeCast ⟨2, ![K, N]⟩ wr hcW) p n
  have e3 := broadcastTo_1b_ab_apply (shapeCast ⟨2, ![1, N]⟩ b hcB) hbB p n
  refine (maximumf_apply _ _ _).trans ?_
  refine (congrArg₂ max ?_ ?_).trans (Cert.Sage.combine_apply a s h wl b wr p n).symm
  · refine (addf_apply _ _ _).trans (congrArg₂ (· + ·) ?_ ?_)
    · refine (addf_apply _ _ _).trans (congrArg₂ (· + ·) ?_ ?_)
      · refine e1.trans (Finset.sum_congr rfl fun k _ => congrArg₂ (· * ·) ?_ ?_)
        · -- the scaled neighbour sums at (p, k): a (p, k) times the column's entry at p
          show shapeCast ⟨2, ![M, K]⟩ a hcA (ix2 p k)
              * broadcastTo ⟨2, ![M, K]⟩ (shapeCast ⟨2, ![M, 1]⟩ s hcS) hbS (ix2 p k) = _
          rw [shapeCast_self, Cert.Column.broadcastTo_a1_ab_apply, shapeCast_self]
        · rw [shapeCast_self]
      · rw [e3, shapeCast_self]
    · refine e2.trans (Finset.sum_congr rfl fun k _ => congrArg₂ (· * ·) (hh _) ?_)
      rw [shapeCast_self]
  · exact Ideal.ofBits_zero_f32

/-- The read-out, for any extents: a matrix `x` with the entries of `X` times the weights into a zero matrix, plus the
    bias row repeated down the rows, read at entry (p, n), is the read-out `affine` of `X` there. -/
theorem readout_apply {M J N : ℕ} (D : DotDims ⟨2, ![M, J]⟩ ⟨2, ![J, N]⟩ ⟨2, ![M, N]⟩) (hD : D = DotDims.plain M J N)
    (hcW : (⟨2, ![J, N]⟩ : Shape).ShapeCasts ⟨2, ![J, N]⟩) (hcB : (⟨2, ![1, N]⟩ : Shape).ShapeCasts ⟨2, ![1, N]⟩)
    (hbB : (⟨2, ![1, N]⟩ : Shape).Broadcasts ⟨2, ![M, N]⟩) (ht : FTy.bits .bf16 < FTy.bits .f32)
    (x : FVec Ideal ⟨2, ![M, J]⟩ .f32) (X : Cert.Sage.Mat M J) (hx : ∀ (p : Fin M) (j : Fin J), x (ix2 p j) = X (ix2 p j))
    (w : FVec Ideal ⟨2, ![J, N]⟩ .bf16) (b : FVec Ideal ⟨2, ![1, N]⟩ .f32) (p : Fin M) (n : Fin N) :
    addf
        (matmul D none (truncf .bf16 x ht) (shapeCast ⟨2, ![J, N]⟩ w hcW)
          (constant (F := Ideal) ⟨2, ![M, N]⟩ .f32 0x00000000#32))
        (broadcastTo ⟨2, ![M, N]⟩ (shapeCast ⟨2, ![1, N]⟩ b hcB) hbB) (ix2 p n)
      = Cert.Sage.affine X w b (ix2 p n) := by
  have e1 := Cert.LibPlainMatmul.matmul_eq_plain_zero_apply D hD none (truncf .bf16 x ht)
    (shapeCast ⟨2, ![J, N]⟩ w hcW) p n
  have e3 := broadcastTo_1b_ab_apply (shapeCast ⟨2, ![1, N]⟩ b hcB) hbB p n
  refine (addf_apply _ _ _).trans ?_
  refine (congrArg₂ (· + ·) ?_ ?_).trans (Cert.Sage.affine_apply X w b p n).symm
  · refine e1.trans (Finset.sum_congr rfl fun j _ => congrArg₂ (· * ·) (hx p j) ?_)
    rw [shapeCast_self]
  · rw [e3, shapeCast_self]

/-- The first layer's block body (4000 nodes, 128 channels in, 128 out) is the layer of the blocks it reads. -/
theorem pay0_eq (v0 : Vec Ideal S4000x128 .f32) (v2 : Vec Ideal S4000x1 .f32) (v4 : Vec Ideal S4000x128 .f32)
    (v9 v11 : Vec Ideal S128x128 .bf16) (v13 : Vec Ideal S1x128 .f32) :
    k0_pay1 (F := Ideal) v0 v2 v4 v9 v11 v13 = Cert.Sage.combine v0 v2 v4 v9 v13 v11 := by
  funext j
  obtain ⟨p, n, rfl⟩ : ∃ (p : Fin 4000) (n : Fin 128), j = ix2 p n := ⟨j 0, j 1, eq_ix2 j⟩
  exact layer_apply dot_S4000x128_S128x128_S4000x128_1_0_0_1_n_n rfl shapeCasts_S4000x128_S4000x128
    shapeCasts_S4000x1_S4000x1 shapeCasts_S128x128_S128x128 shapeCasts_S1x128_S1x128 broadcasts_S4000x1_S4000x128
    broadcasts_S1x128_S4000x128 bitsLt_bf16_f32 v0 v2 v4 v4 v9 v11 v13 (fun _ => rfl) p n

/-- The second layer's block body (128 channels in, 64 out) is the layer of the blocks it reads. -/
theorem pay1_eq (v0 : Vec Ideal S4000x128 .f32) (v2 : Vec Ideal S4000x1 .f32) (v4 : Vec Ideal S4000x128 .f32)
    (v10 v12 : Vec Ideal S128x64 .bf16) (v14 : Vec Ideal S1x64 .f32) :
    k1_pay1 (F := Ideal) v0 v2 v4 v10 v12 v14 = Cert.Sage.combine v0 v2 v4 v10 v14 v12 := by
  funext j
  obtain ⟨p, n, rfl⟩ : ∃ (p : Fin 4000) (n : Fin 64), j = ix2 p n := ⟨j 0, j 1, eq_ix2 j⟩
  exact layer_apply dot_S4000x128_S128x64_S4000x64_1_0_0_1_n_n rfl shapeCasts_S4000x128_S4000x128
    shapeCasts_S4000x1_S4000x1 shapeCasts_S128x64_S128x64 shapeCasts_S1x64_S1x64 broadcasts_S4000x1_S4000x128
    broadcasts_S1x64_S4000x64 bitsLt_bf16_f32 v0 v2 v4 (shapeCast S4000x128 v4 shapeCasts_S4000x128_S4000x128) v10 v12 v14
    (fun i => congrFun (shapeCast_self v4 shapeCasts_S4000x128_S4000x128) i) p n

/-- The last block body (64 channels in, 32 hidden, 2 out) is the read-out of the layer of the blocks it reads. -/
theorem pay2_eq (v0 : Vec Ideal S4000x64 .f32) (v2 : Vec Ideal S4000x1 .f32) (v4 : Vec Ideal S4000x64 .f32)
    (v10 v12 : Vec Ideal S64x32 .bf16) (v14 : Vec Ideal S1x32 .f32) (v24 : Vec Ideal S32x2 .bf16)
    (v26 : Vec Ideal S1x2 .f32) :
    k2_pay1 (F := Ideal) v0 v2 v4 v10 v12 v14 v24 v26
      = Cert.Sage.affine (Cert.Sage.combine v0 v2 v4 v10 v14 v12) v24 v26 := by
  funext j
  obtain ⟨p, n, rfl⟩ : ∃ (p : Fin 4000) (n : Fin 2), j = ix2 p n := ⟨j 0, j 1, eq_ix2 j⟩
  refine readout_apply dot_S4000x32_S32x2_S4000x2_1_0_0_1_n_n rfl shapeCasts_S32x2_S32x2 shapeCasts_S1x2_S1x2
    broadcasts_S1x2_S4000x2 bitsLt_bf16_f32 _ (Cert.Sage.combine v0 v2 v4 v10 v14 v12) (fun p j => ?_) v24 v26 p n
  exact layer_apply dot_S4000x64_S64x32_S4000x32_1_0_0_1_n_n rfl shapeCasts_S4000x64_S4000x64
    shapeCasts_S4000x1_S4000x1 shapeCasts_S64x32_S64x32 shapeCasts_S1x32_S1x32 broadcasts_S4000x1_S4000x64
    broadcasts_S1x32_S4000x32 bitsLt_bf16_f32 v0 v2 v4 (shapeCast S4000x64 v4 shapeCasts_S4000x64_S4000x64) v10 v12 v14
    (fun i => congrFun (shapeCast_self v4 shapeCasts_S4000x64_S4000x64) i) p j

end Cert.Sage.Pay

end
-- ==== Proof.Region0.lean ====
/-
  The first kernel region's output array as one function of the arrays the region finds.

  The region's grid has 25 points; point t stages rows 4000 t … 4000 t + 3999 of the neighbour sums, of the
  reciprocal column and of the features, the two weight matrices and the bias row whole, and writes back rows
  4000 t … 4000 t + 3999 of the output. Its body computes one layer of the block it is given. Since a layer's row p
  depends only on row p of its first three operands, what point t writes back is block t of the layer of the WHOLE
  arrays; the 25 blocks tile the 100000 rows, so the output array ends holding that layer.
-/
import proofs.«139145_j21492016349642_2_alg».proof.Proof.Gen.KernelIdeal.Frame
import proofs.«139145_j21492016349642_2_alg».proof.Proof.LibSageLayer
import proofs.«139145_j21492016349642_2_alg».proof.Proof.KernelPayload
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (neighbour sums, reciprocal column, features,
    output) sit at block row t, the weights and the bias row at block (0, 0); there are 25 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 25 :=
  (by decide +kernel : ∀ t : Fin grid0.N, _)

/-- The neighbour sums' block at point `t` is rows 4000 t … 4000 t + 3999 of the array. -/
theorem blk_sums (c : Dev nD) (t : Fin cfg0.N) (p : Fin 4000) (k : Fin 128) (r : Fin 100000)
    (hr : r.val = t.val * 4000 + p.val) :
    (iblk0 V c 0 t : Cert.Sage.Mat 4000 128) (ix2 p k) = (V c main_v24 : Cert.Sage.Mat 100000 128) (ix2 r k) := by
  obtain ⟨e0, e1, -⟩ := idx_facts t
  unfold iblk0
  rw [View.read_apply]
  show V c main_v24 _ = V c main_v24 _
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- The reciprocal column's block at point `t` is rows 4000 t … 4000 t + 3999 of the column. -/
theorem blk_recip (c : Dev nD) (t : Fin cfg0.N) (p : Fin 4000) (r : Fin 100000)
    (hr : r.val = t.val * 4000 + p.val) :
    (iblk0 V c 1 t : Cert.Sage.Mat 4000 1) (ix2 p (0 : Fin 1)) = (V c main_v12 : Cert.Sage.Mat 100000 1) (ix2 r (0 : Fin 1)) := by
  obtain ⟨-, -, e2, e3, -⟩ := idx_facts t
  unfold iblk0
  rw [View.read_apply]
  show V c main_v12 _ = V c main_v12 _
  congr 1
  funext a
  apply Fin.ext
  match a with
  | ⟨0, _⟩ => show win0_1.index t (0 : Fin 2) * 4000 + 1 * p.val = r.val; omega
  | ⟨1, _⟩ => show win0_1.index t (1 : Fin 2) * 1 + 1 * 0 = 0; omega

/-- The features' block at point `t` is rows 4000 t … 4000 t + 3999 of the array. -/
theorem blk_feat (c : Dev nD) (t : Fin cfg0.N) (p : Fin 4000) (k : Fin 128) (r : Fin 100000)
    (hr : r.val = t.val * 4000 + p.val) :
    (iblk0 V c 2 t : Cert.Sage.Mat 4000 128) (ix2 p k) = (V c main_arg0 : Cert.Sage.Mat 100000 128) (ix2 r k) := by
  obtain ⟨-, -, -, -, e4, e5, -⟩ := idx_facts t
  unfold iblk0
  rw [View.read_apply]
  show V c main_arg0 _ = V c main_arg0 _
  congr 1
  funext a
  apply Fin.ext
  match a with
  | ⟨0, _⟩ => show win0_2.index t (0 : Fin 2) * 4000 + 1 * p.val = r.val; omega
  | ⟨1, _⟩ => show win0_2.index t (1 : Fin 2) * 128 + 1 * k.val = k.val; omega

/-- The left weights' one block is the whole matrix, at every point. -/
theorem blk_wl (c : Dev nD) (t : Fin cfg0.N) :
    (iblk0 V c 3 t : Cert.Sage.Mat 128 128) = (V c main_v25 : Cert.Sage.Mat 128 128) := by
  obtain ⟨-, -, -, -, -, -, e6, e7, -⟩ := idx_facts t
  funext j
  unfold iblk0
  rw [View.read_apply]
  show V c main_v25 _ = V c main_v25 j
  congr 1
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The bias row's one block is the whole row, at every point. -/
theorem blk_bias (c : Dev nD) (t : Fin cfg0.N) :
    (iblk0 V c 4 t : Cert.Sage.Mat 1 128) = (V c main_v27 : Cert.Sage.Mat 1 128) := by
  obtain ⟨-, -, -, -, -, -, -, -, e8, e9, -⟩ := idx_facts t
  funext j
  unfold iblk0
  rw [View.read_apply]
  show V c main_v27 _ = V c main_v27 j
  congr 1
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The right weights' one block is the whole matrix, at every point. -/
theorem blk_wr (c : Dev nD) (t : Fin cfg0.N) :
    (iblk0 V c 5 t : Cert.Sage.Mat 128 128) = (V c main_v26 : Cert.Sage.Mat 128 128) := by
  obtain ⟨-, -, -, -, -, -, -, -, -, -, e10, e11, -⟩ := idx_facts t
  funext j
  unfold iblk0
  rw [View.read_apply]
  show V c main_v26 _ = V c main_v26 j
  congr 1
  funext a
  apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- The layer of the whole arrays the region finds. -/
abbrev layer (c : Dev nD) : Cert.Sage.Mat 100000 128 :=
  Cert.Sage.combine (V c main_v24 : Cert.Sage.Mat 100000 128) (V c main_v12 : Cert.Sage.Mat 100000 1)
    (V c main_arg0 : Cert.Sage.Mat 100000 128) (V c main_v25 : Cert.Sage.Mat 128 128)
    (V c main_v27 : Cert.Sage.Mat 1 128) (V c main_v26 : Cert.Sage.Mat 128 128)

/-- Row `4000 t + p` of the output array, as an index of the 100000 rows. -/
def rowOf (t : Fin cfg0.N) (p : Fin 4000) : Fin 100000 :=
  ⟨t.val * 4000 + p.val, by have h := (idx_facts t).2.2.2.2.2.2.2.2.2.2.2.2.2.2; have := p.isLt; omega⟩

/-- What grid point `t` writes back is block `t` of the layer of the whole arrays. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  refine (Cert.Sage.Pay.pay0_eq (iblk0 V c 0 t) (iblk0 V c 1 t) (iblk0 V c 2 t) (iblk0 V c 3 t) (iblk0 V c 5 t)
    (iblk0 V c 4 t)).trans ?_
  rw [blk_wl V c t, blk_bias V c t, blk_wr V c t]
  obtain ⟨-, -, -, -, -, -, -, -, -, -, -, -, e12, e13, -⟩ := idx_facts t
  funext j
  obtain ⟨p, n, rfl⟩ : ∃ (p : Fin 4000) (n : Fin 128), j = ix2 p n := ⟨j 0, j 1, eq_ix2 j⟩
  rw [View.read_apply]
  have hemb : ((cfg0.win 6).blk t).view.emb (ix2 p n) = (ix2 (rowOf t p) n : (⟨2, ![100000, 128]⟩ : Shape).Idx) := by
    funext a
    apply Fin.ext
    match a with
    | ⟨0, _⟩ => show win0_6.index t (0 : Fin 2) * 4000 + 1 * p.val = t.val * 4000 + p.val; omega
    | ⟨1, _⟩ => show win0_6.index t (1 : Fin 2) * 128 + 1 * n.val = n.val; omega
  rw [hemb]
  exact Cert.Sage.combine_rows (rowOf t) (iblk0 V c 0 t) (iblk0 V c 1 t) (iblk0 V c 2 t)
    (V c main_v24) (V c main_v12) (V c main_arg0) (V c main_v25) (V c main_v27) (V c main_v26)
    (fun p k => blk_sums V c t p k (rowOf t p) rfl) (fun p => blk_recip V c t p (rowOf t p) rfl)
    (fun p k => blk_feat V c t p k (rowOf t p) rfl) p n

/-- An index of the output array is in point `t`'s block iff each coordinate is in the block's range. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v28).slice (win0_6.rect t)).set ↔ _
  rw [View.set_slice_whole, Rect.mem_set_unit]
  exact Iff.rfl

/-- Every block row of the output is some grid point's. -/
theorem idx_onto : ∀ q : Fin 25, ∃ t : Fin cfg0.N, win0_6.index t = ![q.val, 0] :=
  (by decide +kernel : ∀ q : Fin 25, ∃ t : Fin grid0.N, win0_6.index t = ![q.val, 0])

/-- The 25 written-back blocks tile the output array: row r is in the block of the point at block row r / 4000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the region its output array is the layer of the arrays it found. -/
theorem out_eq (c : Dev nD) : (dat0 V c).arrAt 6 cfg0.N = layer V c :=
  (dat0 V c).arrAt_eq_of_cover 6 (layer V c) (fun t _ => flushed_eq V c t) (cover)

end Cert.KernelIdeal.Region0

end
-- ==== Proof.Region1.lean ====
/-
  The second kernel region's output array as one function of the arrays the region finds.

  The region's grid has 25 points; point t stages rows 4000 t … 4000 t + 3999 of the neighbour sums, of the
  reciprocal column and of the features, the two 128 x 64 weight matrices and the bias row whole, and writes back rows
  4000 t … 4000 t + 3999 of the output. Its body computes one layer of the block it is given. Since a layer's row p
  depends only on row p of its first three operands, what point t writes back is block t of the layer of the WHOLE
  arrays; the 25 blocks tile the 100000 rows, so the output array ends holding that layer.
-/
import proofs.«139145_j21492016349642_2_alg».proof.Proof.Gen.KernelIdeal.Frame
import proofs.«139145_j21492016349642_2_alg».proof.Proof.LibSageLayer
import proofs.«139145_j21492016349642_2_alg».proof.Proof.KernelPayload
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (neighbour sums, reciprocal column, features,
    output) sit at block row t, the weights and the bias row at block (0, 0); there are 25 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 25 :=
  (by decide +kernel : ∀ t : Fin grid1.N, _)

/-- The neighbour sums' block at point `t` is rows 4000 t … 4000 t + 3999 of the array. -/
theorem blk_sums (c : Dev nD) (t : Fin cfg1.N) (p : Fin 4000) (k : Fin 128) (r : Fin 100000)
    (hr : r.val = t.val * 4000 + p.val) :
    (iblk1 V c 0 t : Cert.Sage.Mat 4000 128) (ix2 p k) = (V c main_v40 : Cert.Sage.Mat 100000 128) (ix2 r k) := by
  obtain ⟨e0, e1, -⟩ := idx_facts t
  unfold iblk1
  rw [View.read_apply]
  show V c main_v40 _ = V c main_v40 _
  congr 1
  funext a
  apply Fin.ext
  match a with
  | ⟨0, _⟩ => show win1_0.index t (0 : Fin 2) * 4000 + 1 * p.val = r.val; omega
  | ⟨1, _⟩ => show win1_0.index t (1 : Fin 2) * 128 + 1 * k.val = k.val; omega

/-- The reciprocal column's block at point `t` is rows 4000 t … 4000 t + 3999 of the column. -/
theorem blk_recip (c : Dev nD) (t : Fin cfg1.N) (p : Fin 4000) (r : Fin 100000)
    (hr : r.val = t.val * 4000 + p.val) :
    (iblk1 V c 1 t : Cert.Sage.Mat 4000 1) (ix2 p (0 : Fin 1)) = (V c main_v12 : Cert.Sage.Mat 100000 1) (ix2 r (0 : Fin 1)) := by
  obtain ⟨-, -, e2, e3, -⟩ := idx_facts t
  unfold iblk1
  rw [View.read_apply]
  show V c main_v12 _ = V c main_v12 _
  congr 1
  funext a
  apply Fin.ext
  match a with
  | ⟨0, _⟩ => show win1_1.index t (0 : Fin 2) * 4000 + 1 * p.val = r.val; omega
  | ⟨1, _⟩ => show win1_1.index t (1 : Fin 2) * 1 + 1 * 0 = 0; omega

/-- The features' block at point `t` is rows 4000 t … 4000 t + 3999 of the array. -/
theorem blk_feat (c : Dev nD) (t : Fin cfg1.N) (p : Fin 4000) (k : Fin 128) (r : Fin 100000)
    (hr : r.val = t.val * 4000 + p.val) :
    (iblk1 V c 2 t : Cert.Sage.Mat 4000 128) (ix2 p k) = (V c main_v28 : Cert.Sage.Mat 100000 128) (ix2 r k) := by
  obtain ⟨-, -, -, -, e4, e5, -⟩ := idx_facts t
  unfold iblk1
  rw [View.read_apply]
  show V c main_v28 _ = V c main_v28 _
  congr 1
  funext a
  apply Fin.ext
  match a with
  | ⟨0, _⟩ => show win1_2.index t (0 : Fin 2) * 4000 + 1 * p.val = r.val; omega
  | ⟨1, _⟩ => show win1_2.index t (1 : Fin 2) * 128 + 1 * k.val = k.val; omega

/-- The left weights' one block is the whole matrix, at every point. -/
theorem blk_wl (c : Dev nD) (t : Fin cfg1.N) :
    (iblk1 V c 3 t : Cert.Sage.Mat 128 64) = (V c main_v41 : Cert.Sage.Mat 128 64) := by
  obtain ⟨-, -, -, -, -, -, e6, e7, -⟩ := idx_facts t
  funext j
  unfold iblk1
  rw [View.read_apply]
  show V c main_v41 _ = V c main_v41 j
  congr 1
  funext a
  apply Fin.ext
  match a with
  | ⟨0, _⟩ => show win1_3.index t (0 : Fin 2) * 128 + 1 * (j 0).val = (j 0).val; omega
  | ⟨1, _⟩ => show win1_3.index t (1 : Fin 2) * 64 + 1 * (j 1).val = (j 1).val; omega

/-- The bias row's one block is the whole row, at every point. -/
theorem blk_bias (c : Dev nD) (t : Fin cfg1.N) :
    (iblk1 V c 4 t : Cert.Sage.Mat 1 64) = (V c main_v43 : Cert.Sage.Mat 1 64) := by
  obtain ⟨-, -, -, -, -, -, -, -, e8, e9, -⟩ := idx_facts t
  funext j
  unfold iblk1
  rw [View.read_apply]
  show V c main_v43 _ = V c main_v43 j
  congr 1
  funext a
  apply Fin.ext
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- The right weights' one block is the whole matrix, at every point. -/
theorem blk_wr (c : Dev nD) (t : Fin cfg1.N) :
    (iblk1 V c 5 t : Cert.Sage.Mat 128 64) = (V c main_v42 : Cert.Sage.Mat 128 64) := by
  obtain ⟨-, -, -, -, -, -, -, -, -, -, e10, e11, -⟩ := idx_facts t
  funext j
  unfold iblk1
  rw [View.read_apply]
  show V c main_v42 _ = V c main_v42 j
  congr 1
  funext a
  apply Fin.ext
  match a with
  | ⟨0, _⟩ => show win1_5.index t (0 : Fin 2) * 128 + 1 * (j 0).val = (j 0).val; omega
  | ⟨1, _⟩ => show win1_5.index t (1 : Fin 2) * 64 + 1 * (j 1).val = (j 1).val; omega

/-- The layer of the whole arrays the region finds. -/
abbrev layer (c : Dev nD) : Cert.Sage.Mat 100000 64 :=
  Cert.Sage.combine (V c main_v40 : Cert.Sage.Mat 100000 128) (V c main_v12 : Cert.Sage.Mat 100000 1)
    (V c main_v28 : Cert.Sage.Mat 100000 128) (V c main_v41 : Cert.Sage.Mat 128 64)
    (V c main_v43 : Cert.Sage.Mat 1 64) (V c main_v42 : Cert.Sage.Mat 128 64)

/-- Row `4000 t + p` of the output array, as an index of the 100000 rows. -/
def rowOf (t : Fin cfg1.N) (p : Fin 4000) : Fin 100000 :=
  ⟨t.val * 4000 + p.val, by have h := (idx_facts t).2.2.2.2.2.2.2.2.2.2.2.2.2.2; have := p.isLt; omega⟩

/-- What grid point `t` writes back is block `t` of the layer of the whole arrays. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x64) hz, View.ld_unit_zero (S := S1x64) hz]
  refine (Cert.Sage.Pay.pay1_eq (iblk1 V c 0 t) (iblk1 V c 1 t) (iblk1 V c 2 t) (iblk1 V c 3 t) (iblk1 V c 5 t)
    (iblk1 V c 4 t)).trans ?_
  rw [blk_wl V c t, blk_bias V c t, blk_wr V c t]
  obtain ⟨-, -, -, -, -, -, -, -, -, -, -, -, e12, e13, -⟩ := idx_facts t
  funext j
  obtain ⟨p, n, rfl⟩ : ∃ (p : Fin 4000) (n : Fin 64), j = ix2 p n := ⟨j 0, j 1, eq_ix2 j⟩
  rw [View.read_apply]
  have hemb : ((cfg1.win 6).blk t).view.emb (ix2 p n) = (ix2 (rowOf t p) n : (⟨2, ![100000, 64]⟩ : Shape).Idx) := by
    funext a
    apply Fin.ext
    match a with
    | ⟨0, _⟩ => show win1_6.index t (0 : Fin 2) * 4000 + 1 * p.val = t.val * 4000 + p.val; omega
    | ⟨1, _⟩ => show win1_6.index t (1 : Fin 2) * 64 + 1 * n.val = n.val; omega
  rw [hemb]
  exact Cert.Sage.combine_rows (rowOf t) (iblk1 V c 0 t) (iblk1 V c 1 t) (iblk1 V c 2 t)
    (V c main_v40) (V c main_v12) (V c main_v28) (V c main_v41) (V c main_v43) (V c main_v42)
    (fun p k => blk_sums V c t p k (rowOf t p) rfl) (fun p => blk_recip V c t p (rowOf t p) rfl)
    (fun p k => blk_feat V c t p k (rowOf t p) rfl) p n

/-- An index of the output array is in point `t`'s block iff each coordinate is in the block's range. -/
theorem mem_blk (t : Fin cfg1.N) (i : S100000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v44).slice (win1_6.rect t)).set ↔ _
  rw [View.set_slice_whole, Rect.mem_set_unit]
  exact Iff.rfl

/-- Every block row of the output is some grid point's. -/
theorem idx_onto : ∀ q : Fin 25, ∃ t : Fin cfg1.N, win1_6.index t = ![q.val, 0] :=
  (by decide +kernel : ∀ q : Fin 25, ∃ t : Fin grid1.N, win1_6.index t = ![q.val, 0])

/-- The 25 written-back blocks tile the output array: row r is in the block of the point at block row r / 4000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- After the region its output array is the layer of the arrays it found. -/
theorem out_eq (c : Dev nD) : (dat1 V c).arrAt 6 cfg1.N = layer V c :=
  (dat1 V c).arrAt_eq_of_cover 6 (layer V c) (fun t _ => flushed_eq V c t) (cover)

end Cert.KernelIdeal.Region1

end
-- ==== Proof.Region2.lean ====
/-
  The third kernel region's output array as one function of the arrays the region finds.

  The region's grid has 25 points; point t stages rows 4000 t … 4000 t + 3999 of the neighbour sums, of the
  reciprocal column and of the features (64 channels), the two 64 x 32 weight matrices, the bias row, the 32 x 2
  read-out matrix and its bias row whole, and writes back rows 4000 t … 4000 t + 3999 of the output. Its body computes
  one layer of the block it is given and then the read-out of that layer. A layer's row p depends only on row p of
  its first three operands, and the read-out's row p only on row p of its input; so what point t writes back is
  block t of the read-out of the layer of the WHOLE arrays, and the 25 blocks tile the 100000 rows.
-/
import proofs.«139145_j21492016349642_2_alg».proof.Proof.Gen.KernelIdeal.Frame
import proofs.«139145_j21492016349642_2_alg».proof.Proof.LibSageLayer
import proofs.«139145_j21492016349642_2_alg».proof.Proof.KernelPayload
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (neighbour sums, reciprocal column, features,
    output) sit at block row t, the weights, the read-out matrix and the two bias rows at block (0, 0); there are
    25 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ t.val < 25 :=
  (by decide +kernel : ∀ t : Fin grid2.N, _)

/-- The neighbour sums' block at point `t` is rows 4000 t … 4000 t + 3999 of the array. -/
theorem blk_sums (c : Dev nD) (t : Fin cfg2.N) (p : Fin 4000) (k : Fin 64) (r : Fin 100000)
    (hr : r.val = t.val * 4000 + p.val) :
    (iblk2 V c 0 t : Cert.Sage.Mat 4000 64) (ix2 p k) = (V c main_v56 : Cert.Sage.Mat 100000 64) (ix2 r k) := by
  obtain ⟨e0, e1, -⟩ := idx_facts t
  unfold iblk2
  rw [View.read_apply]
  show V c main_v56 _ = V c main_v56 _
  congr 1
  funext a
  apply Fin.ext
  match a with
  | ⟨0, _⟩ => show win2_0.index t (0 : Fin 2) * 4000 + 1 * p.val = r.val; omega
  | ⟨1, _⟩ => show win2_0.index t (1 : Fin 2) * 64 + 1 * k.val = k.val; omega

/-- The reciprocal column's block at point `t` is rows 4000 t … 4000 t + 3999 of the column. -/
theorem blk_recip (c : Dev nD) (t : Fin cfg2.N) (p : Fin 4000) (r : Fin 100000)
    (hr : r.val = t.val * 4000 + p.val) :
    (iblk2 V c 1 t : Cert.Sage.Mat 4000 1) (ix2 p (0 : Fin 1)) = (V c main_v12 : Cert.Sage.Mat 100000 1) (ix2 r (0 : Fin 1)) := by
  obtain ⟨-, -, e2, e3, -⟩ := idx_facts t
  unfold iblk2
  rw [View.read_apply]
  show V c main_v12 _ = V c main_v12 _
  congr 1
  funext a
  apply Fin.ext
  match a with
  | ⟨0, _⟩ => show win2_1.index t (0 : Fin 2) * 4000 + 1 * p.val = r.val; omega
  | ⟨1, _⟩ => show win2_1.index t (1 : Fin 2) * 1 + 1 * 0 = 0; omega

/-- The features' block at point `t` is rows 4000 t … 4000 t + 3999 of the array. -/
theorem blk_feat (c : Dev nD) (t : Fin cfg2.N) (p : Fin 4000) (k : Fin 64) (r : Fin 100000)
    (hr : r.val = t.val * 4000 + p.val) :
    (iblk2 V c 2 t : Cert.Sage.Mat 4000 64) (ix2 p k) = (V c main_v44 : Cert.Sage.Mat 100000 64) (ix2 r k) := by
  obtain ⟨-, -, -, -, e4, e5, -⟩ := idx_facts t
  unfold iblk2
  rw [View.read_apply]
  show V c main_v44 _ = V c main_v44 _
  congr 1
  funext a
  apply Fin.ext
  match a with
  | ⟨0, _⟩ => show win2_2.index t (0 : Fin 2) * 4000 + 1 * p.val = r.val; omega
  | ⟨1, _⟩ => show win2_2.index t (1 : Fin 2) * 64 + 1 * k.val = k.val; omega

/-- The left weights' one block is the whole matrix, at every point. -/
theorem blk_wl (c : Dev nD) (t : Fin cfg2.N) :
    (iblk2 V c 3 t : Cert.Sage.Mat 64 32) = (V c main_v57 : Cert.Sage.Mat 64 32) := by
  obtain ⟨-, -, -, -, -, -, e6, e7, -⟩ := idx_facts t
  funext j
  unfold iblk2
  rw [View.read_apply]
  show V c main_v57 _ = V c main_v57 j
  congr 1
  funext a
  apply Fin.ext
  match a with
  | ⟨0, _⟩ => show win2_3.index t (0 : Fin 2) * 64 + 1 * (j 0).val = (j 0).val; omega
  | ⟨1, _⟩ => show win2_3.index t (1 : Fin 2) * 32 + 1 * (j 1).val = (j 1).val; omega

/-- The bias row's one block is the whole row, at every point. -/
theorem blk_bias (c : Dev nD) (t : Fin cfg2.N) :
    (iblk2 V c 4 t : Cert.Sage.Mat 1 32) = (V c main_v60 : Cert.Sage.Mat 1 32) := by
  obtain ⟨-, -, -, -, -, -, -, -, e8, e9, -⟩ := idx_facts t
  funext j
  unfold iblk2
  rw [View.read_apply]
  show V c main_v60 _ = V c main_v60 j
  congr 1
  funext a
  apply Fin.ext
  match a with
  | ⟨0, _⟩ => show win2_4.index t (0 : Fin 2) * 1 + 1 * (j 0).val = (j 0).val; omega
  | ⟨1, _⟩ => show win2_4.index t (1 : Fin 2) * 32 + 1 * (j 1).val = (j 1).val; omega

/-- The right weights' one block is the whole matrix, at every point. -/
theorem blk_wr (c : Dev nD) (t : Fin cfg2.N) :
    (iblk2 V c 5 t : Cert.Sage.Mat 64 32) = (V c main_v58 : Cert.Sage.Mat 64 32) := by
  obtain ⟨-, -, -, -, -, -, -, -, -, -, e10, e11, -⟩ := idx_facts t
  funext j
  unfold iblk2
  rw [View.read_apply]
  show V c main_v58 _ = V c main_v58 j
  congr 1
  funext a
  apply Fin.ext
  match a with
  | ⟨0, _⟩ => show win2_5.index t (0 : Fin 2) * 64 + 1 * (j 0).val = (j 0).val; omega
  | ⟨1, _⟩ => show win2_5.index t (1 : Fin 2) * 32 + 1 * (j 1).val = (j 1).val; omega

/-- The read-out matrix's one block is the whole matrix, at every point. -/
theorem blk_wc (c : Dev nD) (t : Fin cfg2.N) :
    (iblk2 V c 6 t : Cert.Sage.Mat 32 2) = (V c main_v59 : Cert.Sage.Mat 32 2) := by
  obtain ⟨-, -, -, -, -, -, -, -, -, -, -, -, e12, e13, -⟩ := idx_facts t
  funext j
  unfold iblk2
  rw [View.read_apply]
  show V c main_v59 _ = V c main_v59 j
  congr 1
  funext a
  apply Fin.ext
  match a with
  | ⟨0, _⟩ => show win2_6.index t (0 : Fin 2) * 32 + 1 * (j 0).val = (j 0).val; omega
  | ⟨1, _⟩ => show win2_6.index t (1 : Fin 2) * 2 + 1 * (j 1).val = (j 1).val; omega

/-- The read-out bias row's one block is the whole row, at every point. -/
theorem blk_bc (c : Dev nD) (t : Fin cfg2.N) :
    (iblk2 V c 7 t : Cert.Sage.Mat 1 2) = (V c main_v61 : Cert.Sage.Mat 1 2) := by
  obtain ⟨-, -, -, -, -, -, -, -, -, -, -, -, -, -, e14, e15, -⟩ := idx_facts t
  funext j
  unfold iblk2
  rw [View.read_apply]
  show V c main_v61 _ = V c main_v61 j
  congr 1
  funext a
  apply Fin.ext
  match a with
  | ⟨0, _⟩ => show win2_7.index t (0 : Fin 2) * 1 + 1 * (j 0).val = (j 0).val; omega
  | ⟨1, _⟩ => show win2_7.index t (1 : Fin 2) * 2 + 1 * (j 1).val = (j 1).val; omega

/-- The layer of the whole arrays the region finds. -/
abbrev layer (c : Dev nD) : Cert.Sage.Mat 100000 32 :=
  Cert.Sage.combine (V c main_v56 : Cert.Sage.Mat 100000 64) (V c main_v12 : Cert.Sage.Mat 100000 1)
    (V c main_v44 : Cert.Sage.Mat 100000 64) (V c main_v57 : Cert.Sage.Mat 64 32)
    (V c main_v60 : Cert.Sage.Mat 1 32) (V c main_v58 : Cert.Sage.Mat 64 32)

/-- The read-out of that layer. -/
abbrev result (c : Dev nD) : Cert.Sage.Mat 100000 2 :=
  Cert.Sage.affine (layer V c) (V c main_v59 : Cert.Sage.Mat 32 2) (V c main_v61 : Cert.Sage.Mat 1 2)

/-- Row `4000 t + p` of the output array, as an index of the 100000 rows. -/
def rowOf (t : Fin cfg2.N) (p : Fin 4000) : Fin 100000 :=
  ⟨t.val * 4000 + p.val, by have h := (idx_facts t).2.2.2.2.2.2.2.2.2.2.2.2.2.2.2.2.2.2; have := p.isLt; omega⟩

/-- What grid point `t` writes back is block `t` of the read-out of the layer of the whole arrays. -/
theorem flushed_eq (c : Dev nD) (t : Fin cfg2.N) :
    (dat2 V c).flushed 8 t = ((cfg2.win 8).blk t).view.read (Elt Ideal) (result V c) := by
  show (cfg2.win 8).cut (grid2.coords t) ((dat2 V c).after 8 t) = _
  rw [after2_8]
  unfold out2_8
  rw [View.canon_unit_zero hz]
  simp only [View.ld_unit_zero (S := S4000x64) hz, View.ld_unit_zero (S := S4000x1) hz,
    View.ld_unit_zero (S := S64x32) hz, View.ld_unit_zero (S := S1x32) hz,
    View.ld_unit_zero (S := S32x2) hz, View.ld_unit_zero (S := S1x2) hz]
  refine (Cert.Sage.Pay.pay2_eq (iblk2 V c 0 t) (iblk2 V c 1 t) (iblk2 V c 2 t) (iblk2 V c 3 t) (iblk2 V c 5 t)
    (iblk2 V c 4 t) (iblk2 V c 6 t) (iblk2 V c 7 t)).trans ?_
  rw [blk_wl V c t, blk_bias V c t, blk_wr V c t, blk_wc V c t, blk_bc V c t]
  obtain ⟨-, -, -, -, -, -, -, -, -, -, -, -, -, -, -, -, e16, e17, -⟩ := idx_facts t
  funext j
  obtain ⟨p, n, rfl⟩ : ∃ (p : Fin 4000) (n : Fin 2), j = ix2 p n := ⟨j 0, j 1, eq_ix2 j⟩
  rw [View.read_apply]
  have hemb : ((cfg2.win 8).blk t).view.emb (ix2 p n) = (ix2 (rowOf t p) n : (⟨2, ![100000, 2]⟩ : Shape).Idx) := by
    funext a
    apply Fin.ext
    match a with
    | ⟨0, _⟩ => show win2_8.index t (0 : Fin 2) * 4000 + 1 * p.val = t.val * 4000 + p.val; omega
    | ⟨1, _⟩ => show win2_8.index t (1 : Fin 2) * 2 + 1 * n.val = n.val; omega
  rw [hemb]
  exact Cert.Sage.affine_rows (rowOf t)
    (Cert.Sage.combine (iblk2 V c 0 t) (iblk2 V c 1 t) (iblk2 V c 2 t) (V c main_v57) (V c main_v60) (V c main_v58))
    (layer V c) (V c main_v59) (V c main_v61)
    (fun p j => Cert.Sage.combine_rows (rowOf t) (iblk2 V c 0 t) (iblk2 V c 1 t) (iblk2 V c 2 t)
      (V c main_v56) (V c main_v12) (V c main_v44) (V c main_v57) (V c main_v60) (V c main_v58)
      (fun p k => blk_sums V c t p k (rowOf t p) rfl) (fun p => blk_recip V c t p (rowOf t p) rfl)
      (fun p k => blk_feat V c t p k (rowOf t p) rfl) p j) p n

/-- An index of the output array is in point `t`'s block iff each coordinate is in the block's range. -/
theorem mem_blk (t : Fin cfg2.N) (i : S100000x2.Idx) :
    i ∈ ((cfg2.win 8).blk t).view.set ↔ ∀ a : Fin 2, win2_8.index t a * S4000x2.size a ≤ (i a).val
      ∧ (i a).val < win2_8.index t a * S4000x2.size a + S4000x2.size a := by
  show i ∈ ((View.whole main_v62).slice (win2_8.rect t)).set ↔ _
  rw [View.set_slice_whole, Rect.mem_set_unit]
  exact Iff.rfl

/-- Every block row of the output is some grid point's. -/
theorem idx_onto : ∀ q : Fin 25, ∃ t : Fin cfg2.N, win2_8.index t = ![q.val, 0] :=
  (by decide +kernel : ∀ q : Fin 25, ∃ t : Fin grid2.N, win2_8.index t = ![q.val, 0])

/-- The 25 written-back blocks tile the output array: row r is in the block of the point at block row r / 4000. -/
theorem cover (i : S100000x2.Idx) :
    ∃ t : Fin cfg2.N, (cfg2.win 8).flush t = true ∧ i ∈ ((cfg2.win 8).blk t).view.set := by
  have hi0 : (i 0).val < 100000 := (i 0).isLt
  have hi1 : (i 1).val < 2 := (i 1).isLt
  obtain ⟨t, ht⟩ := idx_onto ⟨(i 0).val / 4000, by omega⟩
  have q0 : win2_8.index t (0 : Fin 2) = (i 0).val / 4000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 4000 ≤ (i 0).val ∧ (i 0).val < win2_8.index t (0 : Fin 2) * 4000 + 4000; omega
  | ⟨1, _⟩ => show win2_8.index t (1 : Fin 2) * 2 ≤ (i 1).val ∧ (i 1).val < win2_8.index t (1 : Fin 2) * 2 + 2; omega

/-- After the region its output array is the read-out of the layer of the arrays it found. -/
theorem out_eq (c : Dev nD) : (dat2 V c).arrAt 8 cfg2.N = result V c :=
  (dat2 V c).arrAt_eq_of_cover 8 (result V c) (fun t _ => flushed_eq V c t) (cover)

end Cert.KernelIdeal.Region2

end
-- ==== Proof.Chain.lean ====
/-
  The kernel program's result as one function of its arguments.

  Between the regions the program runs host operations: it splits the edge list into a source row and a destination
  row, wraps negative source indices by the node count, gathers the source nodes' features onto the edges and
  scatter-adds them onto the destination nodes (the neighbour sums), counts each node's incoming edges the same way,
  and takes the reciprocal of max(count, 1) as a column. These are named here once (`srcVec`, `dstVec`, `wrapCol`,
  `sumsWide`, `sumsNarrow`, `degMax`, `recipCol`), the gather and the scatter-add never opened: only that the
  same operations meet the same operands matters.

  Walking the program's boundary contents from the launch memory: the first region finds the neighbour sums of the
  input features, the reciprocal column, the features, the two weight matrices and the bias as a row, and leaves
  one layer of them; the second region finds the same of the first layer's output; the third the same of the
  second's and leaves the read-out of its layer. Nothing writes the edge list's two rows, the reciprocal column or an
  argument after they are made, so each later stretch reads them back unchanged.
-/
import proofs.«139145_j21492016349642_2_alg».proof.Proof.Gen.KernelIdeal.Frame
import proofs.«139145_j21492016349642_2_alg».proof.Proof.LibSageLayer
import proofs.«139145_j21492016349642_2_alg».proof.Proof.Region0
import proofs.«139145_j21492016349642_2_alg».proof.Proof.Region1
import proofs.«139145_j21492016349642_2_alg».proof.Proof.Region2
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-- The source node of every edge: row 0 of the edge list. -/
def srcVec (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The destination node of every edge: row 1 of the edge list. -/
def dstVec (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The source indices with a negative index wrapped by the node count, as a column. -/
def wrapCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination indices as a column. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- The neighbour sums of 128-channel features: gathered at the wrapped sources, scatter-added at the destinations. -/
def sumsWide (h : (⟨S100000x128, .f32⟩ : BufTy).Contents (Elt Ideal)) (s d : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstCol d)
    (extf .f32 (Host.gather gather_S100000x128_S1600000x1_S1600000x128_1_0_n_n_0_1_1128 (truncf .bf16 h bitsLt_bf16_f32) (wrapCol s)) bitsLt_bf16_f32)

/-- The neighbour sums of 64-channel features. -/
def sumsNarrow (h : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dstCol d)
    (extf .f32 (Host.gather gather_S100000x64_S1600000x1_S1600000x64_1_0_n_n_0_1_164 (truncf .bf16 h bitsLt_bf16_f32) (wrapCol s)) bitsLt_bf16_f32)

/-- max(number of incoming edges, 1) per node. -/
def degMax (d : (⟨S1600000, .i32⟩ : BufTy).Contents (Elt Ideal)) : (⟨S100000, .f32⟩ : BufTy).Contents (Elt Ideal) :=
  maximumf
    (Host.scatterAdd (F := Ideal) scatter_S100000_S1600000x1_S1600000_n_0_0_1
      (broadcastInDim S100000 ![] bcast_S_S100000 (constant (F := Ideal) S_ .f32 0x00000000#32)) (dstCol d)
      (broadcastInDim S1600000 ![] bcast_S_S1600000 (constant (F := Ideal) S_ .f32 0x3F800000#32)))
    (broadcastInDim S100000 ![] bcast_S_S100000 (constant (F := Ideal) S_ .f32 0x3F800000#32))

/-- 1 / max(number of incoming edges, 1) per node, as a column. -/
def recipCol (d : (⟨S1600000, .i32⟩ : BufTy).Contents (Elt Ideal)) : (⟨S100000x1, .f32⟩ : BufTy).Contents (Elt Ideal) :=
  shapeCast _ (Host.divf (F := Ideal) (broadcastInDim S100000 ![] bcast_S_S100000 (constant (F := Ideal) S_ .f32 0x3F800000#32)) (degMax d))
    shapeCasts_S100000_S100000x1

variable (m : (ℓ : Loc nD τ sig) → Buf (Elt Ideal) ℓ) (ρ : Dev nD → PrngReg)

/-- An argument array's launch contents on core `c`. -/
abbrev arg (c : Dev nD) (b : Ref sig .tc) : Buf (Elt Ideal) ((c : Thread nD τ).loc b) := m ((c : Thread nD τ).loc b)

/-- The first layer: of the input features `x`, with the first layer's weights and bias. -/
def layer1 (x : (⟨S100000x128, .f32⟩ : BufTy).Contents (Elt Ideal)) (ei : (⟨S2x1600000, .i32⟩ : BufTy).Contents (Elt Ideal))
    (wl : (⟨S128x128, .f32⟩ : BufTy).Contents (Elt Ideal)) (b : (⟨S128, .f32⟩ : BufTy).Contents (Elt Ideal))
    (wr : (⟨S128x128, .f32⟩ : BufTy).Contents (Elt Ideal)) : Cert.Sage.Mat 100000 128 :=
  Cert.Sage.combine (sumsWide x (srcVec ei) (dstVec ei)) (recipCol (dstVec ei)) x
    wl (shapeCast _ b shapeCasts_S128_S1x128) wr

/-- The second layer: of the first layer's output `h`. -/
def layer2 (h : (⟨S100000x128, .f32⟩ : BufTy).Contents (Elt Ideal)) (ei : (⟨S2x1600000, .i32⟩ : BufTy).Contents (Elt Ideal))
    (wl : (⟨S128x64, .f32⟩ : BufTy).Contents (Elt Ideal)) (b : (⟨S64, .f32⟩ : BufTy).Contents (Elt Ideal))
    (wr : (⟨S128x64, .f32⟩ : BufTy).Contents (Elt Ideal)) : Cert.Sage.Mat 100000 64 :=
  Cert.Sage.combine (sumsWide h (srcVec ei) (dstVec ei)) (recipCol (dstVec ei)) h
    wl (shapeCast _ b shapeCasts_S64_S1x64) wr

/-- The third layer followed by the read-out: of the second layer's output `h`. -/
def readout (h : (⟨S100000x64, .f32⟩ : BufTy).Contents (Elt Ideal)) (ei : (⟨S2x1600000, .i32⟩ : BufTy).Contents (Elt Ideal))
    (wl : (⟨S64x32, .f32⟩ : BufTy).Contents (Elt Ideal)) (b : (⟨S32, .f32⟩ : BufTy).Contents (Elt Ideal))
    (wr : (⟨S64x32, .f32⟩ : BufTy).Contents (Elt Ideal)) (wc : (⟨S32x2, .f32⟩ : BufTy).Contents (Elt Ideal))
    (bc : (⟨S2, .f32⟩ : BufTy).Contents (Elt Ideal)) : Cert.Sage.Mat 100000 2 :=
  Cert.Sage.affine
    (Cert.Sage.combine (sumsNarrow h (srcVec ei) (dstVec ei)) (recipCol (dstVec ei)) h
      wl (shapeCast _ b shapeCasts_S32_S1x32) wr)
    wc (shapeCast _ bc shapeCasts_S2_S1x2)

/-! ## What the first region finds, and what later stretches read back from before it -/

set_option maxHeartbeats 4000000 in
theorem v1_sums (c : Dev nD) :
    V1 m ρ c main_v24 = sumsWide (arg m c main_arg0) (srcVec (arg m c main_arg1)) (dstVec (arg m c main_arg1)) := by
  show StableHlo.after hostOps0 (W0 m ρ c) (Proc.devRef .tc main_v24) = _
  after_results_simp <;> rfl

set_option maxHeartbeats 4000000 in
theorem v1_recip (c : Dev nD) : V1 m ρ c main_v12 = recipCol (dstVec (arg m c main_arg1)) := by
  show StableHlo.after hostOps0 (W0 m ρ c) (Proc.devRef .tc main_v12) = _
  after_results_simp <;> rfl

set_option maxHeartbeats 4000000 in
theorem v1_feat (c : Dev nD) : V1 m ρ c main_arg0 = arg m c main_arg0 := by
  show StableHlo.after hostOps0 (W0 m ρ c) (Proc.devRef .tc main_arg0) = _
  after_results_simp <;> rfl

set_option maxHeartbeats 4000000 in
/-- The left weights' buffer holds the argument's values: a change of float format is the identity on extended reals. -/
theorem v1_wl (c : Dev nD) : (V1 m ρ c main_v25 : Cert.Sage.Mat 128 128) = (arg m c main_arg2 : Cert.Sage.Mat 128 128) := by
  show StableHlo.after hostOps0 (W0 m ρ c) (Proc.devRef .tc main_v25) = _
  after_results_simp <;> rfl

set_option maxHeartbeats 4000000 in
theorem v1_bias (c : Dev nD) : V1 m ρ c main_v27 = shapeCast _ (arg m c main_arg3) shapeCasts_S128_S1x128 := by
  show StableHlo.after hostOps0 (W0 m ρ c) (Proc.devRef .tc main_v27) = _
  after_results_simp <;> rfl

set_option maxHeartbeats 4000000 in
theorem v1_wr (c : Dev nD) : (V1 m ρ c main_v26 : Cert.Sage.Mat 128 128) = (arg m c main_arg4 : Cert.Sage.Mat 128 128) := by
  show StableHlo.after hostOps0 (W0 m ρ c) (Proc.devRef .tc main_v26) = _
  after_results_simp <;> rfl

set_option maxHeartbeats 4000000 in
theorem w1_src (c : Dev nD) : W1 m ρ c (Proc.devRef .tc main_v1) = srcVec (arg m c main_arg1) := by
  show StableHlo.after hostOps0 (W0 m ρ c) (Proc.devRef .tc main_v1) = _
  after_results_simp <;> rfl

set_option maxHeartbeats 4000000 in
theorem w1_dst (c : Dev nD) : W1 m ρ c (Proc.devRef .tc main_v3) = dstVec (arg m c main_arg1) := by
  show StableHlo.after hostOps0 (W0 m ρ c) (Proc.devRef .tc main_v3) = _
  after_results_simp <;> rfl

set_option maxHeartbeats 4000000 in
/-- No operation of the first stretch writes an argument. -/
theorem w1_arg (c : Dev nD) :
    W1 m ρ c (Proc.devRef .tc main_arg5) = arg m c main_arg5 ∧ W1 m ρ c (Proc.devRef .tc main_arg6) = arg m c main_arg6
    ∧ W1 m ρ c (Proc.devRef .tc main_arg7) = arg m c main_arg7 ∧ W1 m ρ c (Proc.devRef .tc main_arg8) = arg m c main_arg8
    ∧ W1 m ρ c (Proc.devRef .tc main_arg9) = arg m c main_arg9 ∧ W1 m ρ c (Proc.devRef .tc main_arg10) = arg m c main_arg10
    ∧ W1 m ρ c (Proc.devRef .tc main_arg11) = arg m c main_arg11 ∧ W1 m ρ c (Proc.devRef .tc main_arg12) = arg m c main_arg12 := by
  refine ⟨?_, ?_, ?_, ?_, ?_, ?_, ?_, ?_⟩ <;>
    (show StableHlo.after hostOps0 (W0 m ρ c) _ = _; after_results_simp <;> rfl)

/-! ## After the first region -/

/-- The first region leaves the first layer of the input features in its output array. -/
theorem w2_out (c : Dev nD) :
    W2 m ρ c (Proc.devRef .tc main_v28)
      = layer1 (arg m c main_arg0) (arg m c main_arg1) (arg m c main_arg2) (arg m c main_arg3) (arg m c main_arg4) := by
  refine (W2_arr m ρ c 6).trans ((Cert.KernelIdeal.Region0.out_eq (V1 m ρ) c).trans ?_)
  unfold Cert.KernelIdeal.Region0.layer layer1
  rw [v1_sums m ρ c, v1_recip m ρ c, v1_feat m ρ c, v1_wl m ρ c, v1_bias m ρ c, v1_wr m ρ c]

/-- The region stages the reciprocal column and never writes it back: it is as the region found it. -/
theorem w2_recip (c : Dev nD) : W2 m ρ c (Proc.devRef .tc main_v12) = recipCol (dstVec (arg m c main_arg1)) :=
  (W2_arr m ρ c 1).trans (((dat0 (V1 m ρ) c).arrAt_in 1 rfl _).trans ((A_eq0 (V1 m ρ) c 1).trans (v1_recip m ρ c)))

theorem w2_src (c : Dev nD) : W2 m ρ c (Proc.devRef .tc main_v1) = srcVec (arg m c main_arg1) :=
  (W2_of_ne m ρ c main_v1 (by decide)).trans (w1_src m ρ c)

theorem w2_dst (c : Dev nD) : W2 m ρ c (Proc.devRef .tc main_v3) = dstVec (arg m c main_arg1) :=
  (W2_of_ne m ρ c main_v3 (by decide)).trans (w1_dst m ρ c)

theorem w2_arg (c : Dev nD) :
    W2 m ρ c (Proc.devRef .tc main_arg5) = arg m c main_arg5 ∧ W2 m ρ c (Proc.devRef .tc main_arg6) = arg m c main_arg6
    ∧ W2 m ρ c (Proc.devRef .tc main_arg7) = arg m c main_arg7 ∧ W2 m ρ c (Proc.devRef .tc main_arg8) = arg m c main_arg8
    ∧ W2 m ρ c (Proc.devRef .tc main_arg9) = arg m c main_arg9 ∧ W2 m ρ c (Proc.devRef .tc main_arg10) = arg m c main_arg10
    ∧ W2 m ρ c (Proc.devRef .tc main_arg11) = arg m c main_arg11 ∧ W2 m ρ c (Proc.devRef .tc main_arg12) = arg m c main_arg12 := by
  obtain ⟨a5, a6, a7, a8, a9, a10, a11, a12⟩ := w1_arg m ρ c
  exact ⟨(W2_of_ne m ρ c main_arg5 (by decide)).trans a5, (W2_of_ne m ρ c main_arg6 (by decide)).trans a6,
    (W2_of_ne m ρ c main_arg7 (by decide)).trans a7, (W2_of_ne m ρ c main_arg8 (by decide)).trans a8,
    (W2_of_ne m ρ c main_arg9 (by decide)).trans a9, (W2_of_ne m ρ c main_arg10 (by decide)).trans a10,
    (W2_of_ne m ρ c main_arg11 (by decide)).trans a11, (W2_of_ne m ρ c main_arg12 (by decide)).trans a12⟩

/-- The first layer's output, of the launch contents of the arguments. -/
abbrev h1 (c : Dev nD) : Cert.Sage.Mat 100000 128 :=
  layer1 (arg m c main_arg0) (arg m c main_arg1) (arg m c main_arg2) (arg m c main_arg3) (arg m c main_arg4)

/-- The second layer's output. -/
abbrev h2 (c : Dev nD) : Cert.Sage.Mat 100000 64 :=
  layer2 (h1 m c) (arg m c main_arg1) (arg m c main_arg5) (arg m c main_arg6) (arg m c main_arg7)

/-- The program's result. -/
abbrev out (c : Dev nD) : Cert.Sage.Mat 100000 2 :=
  readout (h2 m c) (arg m c main_arg1) (arg m c main_arg8) (arg m c main_arg9) (arg m c main_arg10)
    (arg m c main_arg11) (arg m c main_arg12)

/-! ## What the second region finds -/

set_option maxHeartbeats 4000000 in
theorem v3_sums (c : Dev nD) :
    V3 m ρ c main_v40 = sumsWide (h1 m c) (srcVec (arg m c main_arg1)) (dstVec (arg m c main_arg1)) := by
  show StableHlo.after hostOps1 (W2 m ρ c) (Proc.devRef .tc main_v40) = _
  after_results_simp
  rw [w2_out m ρ c, w2_src m ρ c, w2_dst m ρ c]
  rfl

set_option maxHeartbeats 4000000 in
theorem v3_recip (c : Dev nD) : V3 m ρ c main_v12 = recipCol (dstVec (arg m c main_arg1)) := by
  show StableHlo.after hostOps1 (W2 m ρ c) (Proc.devRef .tc main_v12) = _
  after_results_simp
  exact w2_recip m ρ c

set_option maxHeartbeats 4000000 in
theorem v3_feat (c : Dev nD) : V3 m ρ c main_v28 = h1 m c := by
  show StableHlo.after hostOps1 (W2 m ρ c) (Proc.devRef .tc main_v28) = _
  after_results_simp
  exact w2_out m ρ c

set_option maxHeartbeats 4000000 in
theorem v3_wl (c : Dev nD) : (V3 m ρ c main_v41 : Cert.Sage.Mat 128 64) = (arg m c main_arg5 : Cert.Sage.Mat 128 64) := by
  show StableHlo.after hostOps1 (W2 m ρ c) (Proc.devRef .tc main_v41) = _
  after_results_simp
  exact congrArg (fun w => truncf (F := Ideal) .bf16 w bitsLt_bf16_f32) (w2_arg m ρ c).1

set_option maxHeartbeats 4000000 in
theorem v3_bias (c : Dev nD) : V3 m ρ c main_v43 = shapeCast _ (arg m c main_arg6) shapeCasts_S64_S1x64 := by
  show StableHlo.after hostOps1 (W2 m ρ c) (Proc.devRef .tc main_v43) = _
  after_results_simp
  rw [(w2_arg m ρ c).2.1]
  rfl

set_option maxHeartbeats 4000000 in
theorem v3_wr (c : Dev nD) : (V3 m ρ c main_v42 : Cert.Sage.Mat 128 64) = (arg m c main_arg7 : Cert.Sage.Mat 128 64) := by
  show StableHlo.after hostOps1 (W2 m ρ c) (Proc.devRef .tc main_v42) = _
  after_results_simp
  exact congrArg (fun w => truncf (F := Ideal) .bf16 w bitsLt_bf16_f32) (w2_arg m ρ c).2.2.1

set_option maxHeartbeats 4000000 in
theorem w3_src (c : Dev nD) : W3 m ρ c (Proc.devRef .tc main_v1) = srcVec (arg m c main_arg1) := by
  show StableHlo.after hostOps1 (W2 m ρ c) (Proc.devRef .tc main_v1) = _
  after_results_simp
  exact w2_src m ρ c

set_option maxHeartbeats 4000000 in
theorem w3_dst (c : Dev nD) : W3 m ρ c (Proc.devRef .tc main_v3) = dstVec (arg m c main_arg1) := by
  show StableHlo.after hostOps1 (W2 m ρ c) (Proc.devRef .tc main_v3) = _
  after_results_simp
  exact w2_dst m ρ c

set_option maxHeartbeats 4000000 in
/-- No operation of the second stretch writes an argument. -/
theorem w3_arg (c : Dev nD) :
    W3 m ρ c (Proc.devRef .tc main_arg8) = arg m c main_arg8 ∧ W3 m ρ c (Proc.devRef .tc main_arg9) = arg m c main_arg9
    ∧ W3 m ρ c (Proc.devRef .tc main_arg10) = arg m c main_arg10 ∧ W3 m ρ c (Proc.devRef .tc main_arg11) = arg m c main_arg11
    ∧ W3 m ρ c (Proc.devRef .tc main_arg12) = arg m c main_arg12 := by
  obtain ⟨-, -, -, a8, a9, a10, a11, a12⟩ := w2_arg m ρ c
  refine ⟨?_, ?_, ?_, ?_, ?_⟩ <;>
    (show StableHlo.after hostOps1 (W2 m ρ c) _ = _; after_results_simp; assumption)

/-! ## After the second region -/

/-- The second region leaves the second layer in its output array. -/
theorem w4_out (c : Dev nD) : W4 m ρ c (Proc.devRef .tc main_v44) = h2 m c := by
  refine (W4_arr m ρ c 6).trans ((Cert.KernelIdeal.Region1.out_eq (V3 m ρ) c).trans ?_)
  unfold Cert.KernelIdeal.Region1.layer h2 layer2
  rw [v3_sums m ρ c, v3_recip m ρ c, v3_feat m ρ c, v3_wl m ρ c, v3_bias m ρ c, v3_wr m ρ c]

theorem w4_recip (c : Dev nD) : W4 m ρ c (Proc.devRef .tc main_v12) = recipCol (dstVec (arg m c main_arg1)) :=
  (W4_arr m ρ c 1).trans (((dat1 (V3 m ρ) c).arrAt_in 1 rfl _).trans ((A_eq1 (V3 m ρ) c 1).trans (v3_recip m ρ c)))

theorem w4_src (c : Dev nD) : W4 m ρ c (Proc.devRef .tc main_v1) = srcVec (arg m c main_arg1) :=
  (W4_of_ne m ρ c main_v1 (by decide)).trans (w3_src m ρ c)

theorem w4_dst (c : Dev nD) : W4 m ρ c (Proc.devRef .tc main_v3) = dstVec (arg m c main_arg1) :=
  (W4_of_ne m ρ c main_v3 (by decide)).trans (w3_dst m ρ c)

theorem w4_arg (c : Dev nD) :
    W4 m ρ c (Proc.devRef .tc main_arg8) = arg m c main_arg8 ∧ W4 m ρ c (Proc.devRef .tc main_arg9) = arg m c main_arg9
    ∧ W4 m ρ c (Proc.devRef .tc main_arg10) = arg m c main_arg10 ∧ W4 m ρ c (Proc.devRef .tc main_arg11) = arg m c main_arg11
    ∧ W4 m ρ c (Proc.devRef .tc main_arg12) = arg m c main_arg12 := by
  obtain ⟨a8, a9, a10, a11, a12⟩ := w3_arg m ρ c
  exact ⟨(W4_of_ne m ρ c main_arg8 (by decide)).trans a8, (W4_of_ne m ρ c main_arg9 (by decide)).trans a9,
    (W4_of_ne m ρ c main_arg10 (by decide)).trans a10, (W4_of_ne m ρ c main_arg11 (by decide)).trans a11,
    (W4_of_ne m ρ c main_arg12 (by decide)).trans a12⟩

/-! ## What the third region finds -/

set_option maxHeartbeats 4000000 in
theorem v5_sums (c : Dev nD) :
    V5 m ρ c main_v56 = sumsNarrow (h2 m c) (srcVec (arg m c main_arg1)) (dstVec (arg m c main_arg1)) := by
  show StableHlo.after hostOps2 (W4 m ρ c) (Proc.devRef .tc main_v56) = _
  after_results_simp
  rw [w4_out m ρ c, w4_src m ρ c, w4_dst m ρ c]
  rfl

set_option maxHeartbeats 4000000 in
theorem v5_recip (c : Dev nD) : V5 m ρ c main_v12 = recipCol (dstVec (arg m c main_arg1)) := by
  show StableHlo.after hostOps2 (W4 m ρ c) (Proc.devRef .tc main_v12) = _
  after_results_simp
  exact w4_recip m ρ c

set_option maxHeartbeats 4000000 in
theorem v5_feat (c : Dev nD) : V5 m ρ c main_v44 = h2 m c := by
  show StableHlo.after hostOps2 (W4 m ρ c) (Proc.devRef .tc main_v44) = _
  after_results_simp
  exact w4_out m ρ c

set_option maxHeartbeats 4000000 in
theorem v5_wl (c : Dev nD) : (V5 m ρ c main_v57 : Cert.Sage.Mat 64 32) = (arg m c main_arg8 : Cert.Sage.Mat 64 32) := by
  show StableHlo.after hostOps2 (W4 m ρ c) (Proc.devRef .tc main_v57) = _
  after_results_simp
  exact congrArg (fun w => truncf (F := Ideal) .bf16 w bitsLt_bf16_f32) (w4_arg m ρ c).1

set_option maxHeartbeats 4000000 in
theorem v5_bias (c : Dev nD) : V5 m ρ c main_v60 = shapeCast _ (arg m c main_arg9) shapeCasts_S32_S1x32 := by
  show StableHlo.after hostOps2 (W4 m ρ c) (Proc.devRef .tc main_v60) = _
  after_results_simp
  rw [(w4_arg m ρ c).2.1]
  rfl

set_option maxHeartbeats 4000000 in
theorem v5_wr (c : Dev nD) : (V5 m ρ c main_v58 : Cert.Sage.Mat 64 32) = (arg m c main_arg10 : Cert.Sage.Mat 64 32) := by
  show StableHlo.after hostOps2 (W4 m ρ c) (Proc.devRef .tc main_v58) = _
  after_results_simp
  exact congrArg (fun w => truncf (F := Ideal) .bf16 w bitsLt_bf16_f32) (w4_arg m ρ c).2.2.1

set_option maxHeartbeats 4000000 in
theorem v5_wc (c : Dev nD) : (V5 m ρ c main_v59 : Cert.Sage.Mat 32 2) = (arg m c main_arg11 : Cert.Sage.Mat 32 2) := by
  show StableHlo.after hostOps2 (W4 m ρ c) (Proc.devRef .tc main_v59) = _
  after_results_simp
  exact congrArg (fun w => truncf (F := Ideal) .bf16 w bitsLt_bf16_f32) (w4_arg m ρ c).2.2.2.1

set_option maxHeartbeats 4000000 in
theorem v5_bc (c : Dev nD) : V5 m ρ c main_v61 = shapeCast _ (arg m c main_arg12) shapeCasts_S2_S1x2 := by
  show StableHlo.after hostOps2 (W4 m ρ c) (Proc.devRef .tc main_v61) = _
  after_results_simp
  rw [(w4_arg m ρ c).2.2.2.2]
  rfl

/-! ## The result -/

/-- The third region leaves the read-out of the third layer in the result array: the program's result is `out`
    of the launch contents of its arguments. -/
theorem w6_out (c : Dev nD) : W6 m ρ c (Proc.devRef .tc main_v62) = out m c := by
  refine (W6_arr m ρ c 8).trans ((Cert.KernelIdeal.Region2.out_eq (V5 m ρ) c).trans ?_)
  unfold Cert.KernelIdeal.Region2.result Cert.KernelIdeal.Region2.layer out readout
  rw [v5_sums m ρ c, v5_recip m ρ c, v5_feat m ρ c, v5_wl m ρ c, v5_bias m ρ c, v5_wr m ρ c, v5_wc m ρ c, v5_bc m ρ c]

end Cert.KernelIdeal.Chain

end
-- ==== Proof.RefLayers.lean ====
/-
  The reference program's three graph-convolution layers and its read-out, each as one function of whole arrays
  over the extended reals.

  Per layer the reference forms the neighbour sums a (a scatter-add of gathered feature rows, kept here as an
  opaque array), the degree d = max(count, 1), and then
      max( (a / d) . wl + b + h . wr , 0 );
  after three layers it applies the read-out  h . wc + bc.  Read at an entry (p, n), every elementwise stage is the
  same operation on the entries of its operands, a broadcast reads the entry of its operand that (p, n) projects
  to, and a contraction is the finite sum over k of left(p, k) * right(k, n).  Chaining these readings, a layer's
  entry (p, n) is
      max( sum_k (a(p,k) / d(p)) * wl(k,n) + b(n) + sum_k h(p,k) * wr(k,n) , 0 ),
  which is `combineDiv` of the neighbour sums, the degree vector, the layer's input and its parameters; the
  read-out's entry is  sum_j h(p,j) * wc(j,n) + bc(n), which is `affineVec`.  The degree is nowhere zero because
  it is a maximum with one, and 0 < 1.
-/
import proofs.«139145_j21492016349642_2_alg».proof.Proof.Gen.ReferenceIdeal.Read
import proofs.«139145_j21492016349642_2_alg».proof.Proof.LibSageLayer
import Idealize.ShloMosaic.Lib.IdealHost

noncomputable section

open scoped BigOperators

namespace Cert.Sage.Ref

open Cert.ReferenceIdeal Cert.ReferenceIdeal.Gen Cert.ReferenceIdeal.Read Idealize.ShloMosaic Idealize.ShloMosaic.ValueIdx

/-- A maximum with one is not zero on the extended reals: 0 < 1 ≤ max a 1. -/
theorem max_one_ne_zero (a : EReal) : max a 1 ≠ 0 :=
  (lt_of_lt_of_le zero_lt_one (le_max_right a 1)).ne'

variable (x0 : (⟨S100000x128, .f32⟩ : BufTy).Contents (Elt Ideal))
variable (x1 : (⟨S2x1600000, .i32⟩ : BufTy).Contents (Elt Ideal))
variable (x2 : (⟨S128x128, .f32⟩ : BufTy).Contents (Elt Ideal))
variable (x3 : (⟨S128, .f32⟩ : BufTy).Contents (Elt Ideal))
variable (x4 : (⟨S128x128, .f32⟩ : BufTy).Contents (Elt Ideal))
variable (x5 : (⟨S128x64, .f32⟩ : BufTy).Contents (Elt Ideal))
variable (x6 : (⟨S64, .f32⟩ : BufTy).Contents (Elt Ideal))
variable (x7 : (⟨S128x64, .f32⟩ : BufTy).Contents (Elt Ideal))
variable (x8 : (⟨S64x32, .f32⟩ : BufTy).Contents (Elt Ideal))
variable (x9 : (⟨S32, .f32⟩ : BufTy).Contents (Elt Ideal))
variable (x10 : (⟨S64x32, .f32⟩ : BufTy).Contents (Elt Ideal))
variable (x11 : (⟨S32x2, .f32⟩ : BufTy).Contents (Elt Ideal))
variable (x12 : (⟨S2, .f32⟩ : BufTy).Contents (Elt Ideal))

/-- The first layer's degree vector, a maximum with one, is nowhere zero. -/
theorem deg1_ne_zero : ∀ p : Fin 100000, val_main_v19 (F := Ideal) x1 (ix1 p) ≠ 0 := by
  intro p
  rw [val_main_v19_apply, val_main_v18_apply, val_main_cst_3_apply, Ideal.maximumf_def, Ideal.ofBits_def, Ideal.ofBits_one_f32]
  exact max_one_ne_zero _

/-- The second layer's degree vector, a maximum with one, is nowhere zero. -/
theorem deg2_ne_zero : ∀ p : Fin 100000, val_main_v49 (F := Ideal) x1 (ix1 p) ≠ 0 := by
  intro p
  rw [val_main_v49_apply, val_main_v48_apply, val_main_cst_9_apply, Ideal.maximumf_def, Ideal.ofBits_def, Ideal.ofBits_one_f32]
  exact max_one_ne_zero _

/-- The third layer's degree vector, a maximum with one, is nowhere zero. -/
theorem deg3_ne_zero : ∀ p : Fin 100000, val_main_v79 (F := Ideal) x1 (ix1 p) ≠ 0 := by
  intro p
  rw [val_main_v79_apply, val_main_v78_apply, val_main_cst_15_apply, Ideal.maximumf_def, Ideal.ofBits_def, Ideal.ofBits_one_f32]
  exact max_one_ne_zero _

/-- The first layer: from the 128 input channels x0 to 128 channels. -/
theorem h1_eq :
    val_main_v29 (F := Ideal) x0 x1 x2 x3 x4
      = Cert.Sage.combineDiv (val_main_v13 (F := Ideal) x0 x1) (val_main_v19 (F := Ideal) x1) x0 x2 x3 x4 := by
  funext i
  obtain ⟨p, n, rfl⟩ : ∃ (p : Fin 100000) (n : Fin 128), i = ix2 p n := ⟨i 0, i 1, eq_ix2 i⟩
  rw [Cert.Sage.combineDiv_apply]
  -- the contraction indices of the two products, the bias index and the degree index, at the entry (p, n)
  have el : ∀ k : Fin 128, lidx_main_v23 (ix2 p n) k = ix2 p k := fun k => funext fun a => Fin.ext (by match a with | ⟨0, _⟩ => rfl | ⟨1, _⟩ => rfl)
  have er : ∀ k : Fin 128, ridx_main_v23 (ix2 p n) k = ix2 k n := fun k => funext fun a => Fin.ext (by match a with | ⟨0, _⟩ => rfl | ⟨1, _⟩ => rfl)
  have el' : ∀ k : Fin 128, lidx_main_v27 (ix2 p n) k = ix2 p k := fun k => funext fun a => Fin.ext (by match a with | ⟨0, _⟩ => rfl | ⟨1, _⟩ => rfl)
  have er' : ∀ k : Fin 128, ridx_main_v27 (ix2 p n) k = ix2 k n := fun k => funext fun a => Fin.ext (by match a with | ⟨0, _⟩ => rfl | ⟨1, _⟩ => rfl)
  have eb : idx_main_v24 (idx_main_v25 (ix2 p n)) = ix1 n := funext fun a => Fin.ext (by match a with | ⟨0, _⟩ => rfl)
  have ed : ∀ k : Fin 128, idx_main_v20 (idx_main_v21 (ix2 p k)) = ix1 p := fun k => funext fun a => Fin.ext (by match a with | ⟨0, _⟩ => rfl)
  -- the scaled neighbour sum at (p, k): the degree, broadcast along the row, is read at p
  have hdiv : ∀ k : Fin 128, val_main_v22 (F := Ideal) x0 x1 (ix2 p k)
      = Ideal.div (val_main_v13 (F := Ideal) x0 x1 (ix2 p k)) (val_main_v19 (F := Ideal) x1 (ix1 p)) := by
    intro k
    rw [val_main_v22_apply, val_main_v21_apply, val_main_v20_apply, ed k, Ideal.hostDivf_def]
  -- the outer stages: max with zero, the two sums, the two contractions, the bias broadcast
  rw [val_main_v29_apply, val_main_v28_apply, val_main_v26_apply, val_main_v23_apply, val_main_v27_apply,
    val_main_v25_apply, val_main_v24_apply, val_main_call0_v0_apply, val_main_call0_cst_apply, eb,
    Ideal.maximumf_def, Ideal.addf_def, Ideal.addf_def, Ideal.ofBits_def, Ideal.ofBits_zero_f32]
  simp only [el, er, el', er', hdiv]

/-- The second layer: from the first layer's 128 channels to 64 channels. -/
theorem h2_eq :
    val_main_v59 (F := Ideal) x0 x1 x2 x3 x4 x5 x6 x7
      = Cert.Sage.combineDiv (val_main_v43 (F := Ideal) x0 x1 x2 x3 x4) (val_main_v49 (F := Ideal) x1) (val_main_v29 (F := Ideal) x0 x1 x2 x3 x4) x5 x6 x7 := by
  funext i
  obtain ⟨p, n, rfl⟩ : ∃ (p : Fin 100000) (n : Fin 64), i = ix2 p n := ⟨i 0, i 1, eq_ix2 i⟩
  rw [Cert.Sage.combineDiv_apply]
  -- the contraction indices of the two products, the bias index and the degree index, at the entry (p, n)
  have el : ∀ k : Fin 128, lidx_main_v53 (ix2 p n) k = ix2 p k := fun k => funext fun a => Fin.ext (by match a with | ⟨0, _⟩ => rfl | ⟨1, _⟩ => rfl)
  have er : ∀ k : Fin 128, ridx_main_v53 (ix2 p n) k = ix2 k n := fun k => funext fun a => Fin.ext (by match a with | ⟨0, _⟩ => rfl | ⟨1, _⟩ => rfl)
  have el' : ∀ k : Fin 128, lidx_main_v57 (ix2 p n) k = ix2 p k := fun k => funext fun a => Fin.ext (by match a with | ⟨0, _⟩ => rfl | ⟨1, _⟩ => rfl)
  have er' : ∀ k : Fin 128, ridx_main_v57 (ix2 p n) k = ix2 k n := fun k => funext fun a => Fin.ext (by match a with | ⟨0, _⟩ => rfl | ⟨1, _⟩ => rfl)
  have eb : idx_main_v54 (idx_main_v55 (ix2 p n)) = ix1 n := funext fun a => Fin.ext (by match a with | ⟨0, _⟩ => rfl)
  have ed : ∀ k : Fin 128, idx_main_v50 (idx_main_v51 (ix2 p k)) = ix1 p := fun k => funext fun a => Fin.ext (by match a with | ⟨0, _⟩ => rfl)
  -- the scaled neighbour sum at (p, k): the degree, broadcast along the row, is read at p
  have hdiv : ∀ k : Fin 128, val_main_v52 (F := Ideal) x0 x1 x2 x3 x4 (ix2 p k)
      = Ideal.div (val_main_v43 (F := Ideal) x0 x1 x2 x3 x4 (ix2 p k)) (val_main_v49 (F := Ideal) x1 (ix1 p)) := by
    intro k
    rw [val_main_v52_apply, val_main_v51_apply, val_main_v50_apply, ed k, Ideal.hostDivf_def]
  -- the outer stages: max with zero, the two sums, the two contractions, the bias broadcast
  rw [val_main_v59_apply, val_main_v58_apply, val_main_v56_apply, val_main_v53_apply, val_main_v57_apply,
    val_main_v55_apply, val_main_v54_apply, val_main_call1_v0_apply, val_main_call1_cst_apply, eb,
    Ideal.maximumf_def, Ideal.addf_def, Ideal.addf_def, Ideal.ofBits_def, Ideal.ofBits_zero_f32]
  simp only [el, er, el', er', hdiv]

/-- The third layer: from the second layer's 64 channels to 32 channels. -/
theorem h3_eq :
    val_main_v89 (F := Ideal) x0 x1 x2 x3 x4 x5 x6 x7 x8 x9 x10
      = Cert.Sage.combineDiv (val_main_v73 (F := Ideal) x0 x1 x2 x3 x4 x5 x6 x7) (val_main_v79 (F := Ideal) x1) (val_main_v59 (F := Ideal) x0 x1 x2 x3 x4 x5 x6 x7) x8 x9 x10 := by
  funext i
  obtain ⟨p, n, rfl⟩ : ∃ (p : Fin 100000) (n : Fin 32), i = ix2 p n := ⟨i 0, i 1, eq_ix2 i⟩
  rw [Cert.Sage.combineDiv_apply]
  -- the contraction indices of the two products, the bias index and the degree index, at the entry (p, n)
  have el : ∀ k : Fin 64, lidx_main_v83 (ix2 p n) k = ix2 p k := fun k => funext fun a => Fin.ext (by match a with | ⟨0, _⟩ => rfl | ⟨1, _⟩ => rfl)
  have er : ∀ k : Fin 64, ridx_main_v83 (ix2 p n) k = ix2 k n := fun k => funext fun a => Fin.ext (by match a with | ⟨0, _⟩ => rfl | ⟨1, _⟩ => rfl)
  have el' : ∀ k : Fin 64, lidx_main_v87 (ix2 p n) k = ix2 p k := fun k => funext fun a => Fin.ext (by match a with | ⟨0, _⟩ => rfl | ⟨1, _⟩ => rfl)
  have er' : ∀ k : Fin 64, ridx_main_v87 (ix2 p n) k = ix2 k n := fun k => funext fun a => Fin.ext (by match a with | ⟨0, _⟩ => rfl | ⟨1, _⟩ => rfl)
  have eb : idx_main_v84 (idx_main_v85 (ix2 p n)) = ix1 n := funext fun a => Fin.ext (by match a with | ⟨0, _⟩ => rfl)
  have ed : ∀ k : Fin 64, idx_main_v80 (idx_main_v81 (ix2 p k)) = ix1 p := fun k => funext fun a => Fin.ext (by match a with | ⟨0, _⟩ => rfl)
  -- the scaled neighbour sum at (p, k): the degree, broadcast along the row, is read at p
  have hdiv : ∀ k : Fin 64, val_main_v82 (F := Ideal) x0 x1 x2 x3 x4 x5 x6 x7 (ix2 p k)
      = Ideal.div (val_main_v73 (F := Ideal) x0 x1 x2 x3 x4 x5 x6 x7 (ix2 p k)) (val_main_v79 (F := Ideal) x1 (ix1 p)) := by
    intro k
    rw [val_main_v82_apply, val_main_v81_apply, val_main_v80_apply, ed k, Ideal.hostDivf_def]
  -- the outer stages: max with zero, the two sums, the two contractions, the bias broadcast
  rw [val_main_v89_apply, val_main_v88_apply, val_main_v86_apply, val_main_v83_apply, val_main_v87_apply,
    val_main_v85_apply, val_main_v84_apply, val_main_call2_v0_apply, val_main_call2_cst_apply, eb,
    Ideal.maximumf_def, Ideal.addf_def, Ideal.addf_def, Ideal.ofBits_def, Ideal.ofBits_zero_f32]
  simp only [el, er, el', er', hdiv]

/-- The read-out: from the third layer's 32 channels to the 2 outputs. -/
theorem out_eq :
    val_main_v93 (F := Ideal) x0 x1 x2 x3 x4 x5 x6 x7 x8 x9 x10 x11 x12
      = Cert.Sage.affineVec (val_main_v89 (F := Ideal) x0 x1 x2 x3 x4 x5 x6 x7 x8 x9 x10) x11 x12 := by
  funext i
  obtain ⟨p, n, rfl⟩ : ∃ (p : Fin 100000) (n : Fin 2), i = ix2 p n := ⟨i 0, i 1, eq_ix2 i⟩
  rw [Cert.Sage.affineVec_apply]
  have el : ∀ k : Fin 32, lidx_main_v90 (ix2 p n) k = ix2 p k := fun k => funext fun a => Fin.ext (by match a with | ⟨0, _⟩ => rfl | ⟨1, _⟩ => rfl)
  have er : ∀ k : Fin 32, ridx_main_v90 (ix2 p n) k = ix2 k n := fun k => funext fun a => Fin.ext (by match a with | ⟨0, _⟩ => rfl | ⟨1, _⟩ => rfl)
  have eb : idx_main_v91 (idx_main_v92 (ix2 p n)) = ix1 n := funext fun a => Fin.ext (by match a with | ⟨0, _⟩ => rfl)
  rw [val_main_v93_apply, val_main_v90_apply, val_main_v92_apply, val_main_v91_apply, eb, Ideal.addf_def]
  simp only [el, er]

end Cert.Sage.Ref

end
-- ==== Proof.Bridge.lean ====
/-
  The kernel program's result is the reference's.

  Both programs make each layer's neighbour sums by the same gather and scatter-add of the same operands, and count
  the degrees by the same scatter-add of ones; a change of float format is the identity on extended reals, so those
  terms are literally the same once the names are opened (`sums1` … `deg3`). What differs is the arrangement of a
  layer: the kernel multiplies the neighbour sums by the column 1 / max(deg, 1) made once, with the bias as a row,
  where the reference divides by max(deg, 1), with the bias as a vector. The column at node p is 1 / max(deg p, 1)
  (`recip_apply`), max(deg p, 1) is at least 1 and so not zero, and x * (1 / d) = x / d on the extended reals for
  d other than zero: the two arrangements are one function (`Cert.Sage.combine_eq_combineDiv`). Layer by layer, and
  then through the read-out, the kernel's result function is the reference's last stage.
-/
import proofs.«139145_j21492016349642_2_alg».proof.Proof.Chain
import proofs.«139145_j21492016349642_2_alg».proof.Proof.RefLayers
import proofs.«139145_j21492016349642_2_alg».proof.Proof.LibColumn
import Idealize.ShloMosaic.Lib.ValueLayout
import Idealize.ShloMosaic.Lib.IdealHost

set_option maxRecDepth 16384

noncomputable section

namespace Cert.Sage.Bridge

open Idealize.ShloMosaic Idealize.ShloMosaic.ValueIdx
open Cert.KernelIdeal Cert.KernelIdeal.Gen Cert.KernelIdeal.Chain
open Cert.ReferenceIdeal.Read

/-! ## The same neighbour sums and the same degrees -/

theorem sums1 (x0 : (⟨S100000x128, .f32⟩ : BufTy).Contents (Elt Ideal)) (x1 : (⟨S2x1600000, .i32⟩ : BufTy).Contents (Elt Ideal)) :
    sumsWide x0 (srcVec x1) (dstVec x1) = val_main_v13 (F := Ideal) x0 x1 := rfl

theorem sums2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    sumsWide (val_main_v29 (F := Ideal) x0 x1 x2 x3 x4) (srcVec x1) (dstVec x1)
      = val_main_v43 (F := Ideal) x0 x1 x2 x3 x4 := rfl

theorem sums3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    sumsNarrow (val_main_v59 (F := Ideal) x0 x1 x2 x3 x4 x5 x6 x7) (srcVec x1) (dstVec x1)
      = val_main_v73 (F := Ideal) x0 x1 x2 x3 x4 x5 x6 x7 := rfl

theorem deg1 (x1 : (⟨S2x1600000, .i32⟩ : BufTy).Contents (Elt Ideal)) : degMax (dstVec x1) = val_main_v19 (F := Ideal) x1 := rfl
theorem deg2 (x1 : (⟨S2x1600000, .i32⟩ : BufTy).Contents (Elt Ideal)) : degMax (dstVec x1) = val_main_v49 (F := Ideal) x1 := rfl
theorem deg3 (x1 : (⟨S2x1600000, .i32⟩ : BufTy).Contents (Elt Ideal)) : degMax (dstVec x1) = val_main_v79 (F := Ideal) x1 := rfl

/-- A per-node vector viewed as a column reads, at (p, 0), the vector at p. -/
theorem col_apply (q : (⟨S100000, .f32⟩ : BufTy).Contents (Elt Ideal)) (p : Fin 100000) :
    shapeCast S100000x1 q shapeCasts_S100000_S100000x1 (ix2 p (0 : Fin 1)) = q (ix1 p) :=
  Cert.Column.shapeCast_a_a1_apply q shapeCasts_S100000_S100000x1 p (0 : Fin 1)

/-- The quotient of the all-ones vector by `e` is 1 / e(p) at node p: the dividend is the f32 word of one. -/
theorem quot_apply (e : (⟨S100000, .f32⟩ : BufTy).Contents (Elt Ideal)) (p : Fin 100000) :
    Host.divf (F := Ideal) (broadcastInDim S100000 ![] bcast_S_S100000 (constant (F := Ideal) S_ .f32 0x3F800000#32)) e (ix1 p)
      = Ideal.div 1 (e (ix1 p)) := by
  show Ideal.div (Ideal.ofBits .f32 0x3F800000#32) _ = _
  rw [Ideal.ofBits_one_f32]

/-- The reciprocal column at node p is 1 / max(deg p, 1): the column is the quotient's vector viewed as a column. -/
theorem recip_apply (d : (⟨S1600000, .i32⟩ : BufTy).Contents (Elt Ideal)) (p : Fin 100000) :
    (recipCol d : Cert.Sage.Mat 100000 1) (ix2 p (0 : Fin 1))
      = Ideal.div 1 ((degMax d : Cert.Sage.Vc 100000) (ix1 p)) := by
  unfold recipCol
  exact (col_apply (Host.divf (F := Ideal) (broadcastInDim S100000 ![] bcast_S_S100000 (constant (F := Ideal) S_ .f32 0x3F800000#32))
    (degMax d)) p).trans (quot_apply (degMax d) p)

/-! ## Layer by layer -/

theorem layer1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    layer1 x0 x1 x2 x3 x4 = val_main_v29 (F := Ideal) x0 x1 x2 x3 x4 := by
  rw [Cert.Sage.Ref.h1_eq, ← sums1 x0 x1]
  unfold layer1
  refine Cert.Sage.combine_eq_combineDiv (sumsWide x0 (srcVec x1) (dstVec x1)) (recipCol (dstVec x1))
    (val_main_v19 (F := Ideal) x1) x0 x2 (shapeCast _ x3 shapeCasts_S128_S1x128) x3 x4 (fun p => ?_)
    (Cert.Sage.Ref.deg1_ne_zero x1) (fun n => shapeCast_a_1a_apply x3 shapeCasts_S128_S1x128 (0 : Fin 1) n)
  rw [← deg1 x1]
  exact recip_apply (dstVec x1) p

theorem layer2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) :
    layer2 (val_main_v29 (F := Ideal) x0 x1 x2 x3 x4) x1 x5 x6 x7
      = val_main_v59 (F := Ideal) x0 x1 x2 x3 x4 x5 x6 x7 := by
  rw [Cert.Sage.Ref.h2_eq, ← sums2 x0 x1 x2 x3 x4]
  unfold layer2
  refine Cert.Sage.combine_eq_combineDiv (sumsWide (val_main_v29 (F := Ideal) x0 x1 x2 x3 x4) (srcVec x1) (dstVec x1))
    (recipCol (dstVec x1)) (val_main_v49 (F := Ideal) x1) (val_main_v29 (F := Ideal) x0 x1 x2 x3 x4) x5
    (shapeCast _ x6 shapeCasts_S64_S1x64) x6 x7 (fun p => ?_)
    (Cert.Sage.Ref.deg2_ne_zero x1) (fun n => shapeCast_a_1a_apply x6 shapeCasts_S64_S1x64 (0 : Fin 1) n)
  rw [← deg2 x1]
  exact recip_apply (dstVec x1) p

theorem layer3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64x32, .f32⟩ : BufTy).Contents (Elt Ideal)) (x9 : (⟨S32, .f32⟩ : BufTy).Contents (Elt Ideal)) (x10 : (⟨S64x32, .f32⟩ : BufTy).Contents (Elt Ideal)) :
    Cert.Sage.combine (sumsNarrow (val_main_v59 (F := Ideal) x0 x1 x2 x3 x4 x5 x6 x7) (srcVec x1) (dstVec x1))
        (recipCol (dstVec x1)) (val_main_v59 (F := Ideal) x0 x1 x2 x3 x4 x5 x6 x7) x8
        (shapeCast _ x9 shapeCasts_S32_S1x32) x10
      = val_main_v89 (F := Ideal) x0 x1 x2 x3 x4 x5 x6 x7 x8 x9 x10 := by
  rw [Cert.Sage.Ref.h3_eq, ← sums3 x0 x1 x2 x3 x4 x5 x6 x7]
  refine Cert.Sage.combine_eq_combineDiv (sumsNarrow (val_main_v59 (F := Ideal) x0 x1 x2 x3 x4 x5 x6 x7) (srcVec x1) (dstVec x1))
    (recipCol (dstVec x1)) (val_main_v79 (F := Ideal) x1) (val_main_v59 (F := Ideal) x0 x1 x2 x3 x4 x5 x6 x7) x8
    (shapeCast _ x9 shapeCasts_S32_S1x32) x9 x10 (fun p => ?_)
    (Cert.Sage.Ref.deg3_ne_zero x1) (fun n => shapeCast_a_1a_apply x9 shapeCasts_S32_S1x32 (0 : Fin 1) n)
  rw [← deg3 x1]
  exact recip_apply (dstVec x1) p

/-- The kernel program's result function of the arguments is the reference's last stage. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64x32, .f32⟩ : BufTy).Contents (Elt Ideal)) (x9 : (⟨S32, .f32⟩ : BufTy).Contents (Elt Ideal)) (x10 : (⟨S64x32, .f32⟩ : BufTy).Contents (Elt Ideal)) (x11 : (⟨S32x2, .f32⟩ : BufTy).Contents (Elt Ideal)) (x12 : (⟨S2, .f32⟩ : BufTy).Contents (Elt Ideal)) :
    readout (layer2 (layer1 x0 x1 x2 x3 x4) x1 x5 x6 x7) x1 x8 x9 x10 x11 x12
      = val_main_v93 (F := Ideal) x0 x1 x2 x3 x4 x5 x6 x7 x8 x9 x10 x11 x12 := by
  rw [layer1_eq x0 x1 x2 x3 x4, layer2_eq x0 x1 x2 x3 x4 x5 x6 x7, Cert.Sage.Ref.out_eq]
  unfold readout
  rw [layer3_eq x0 x1 x2 x3 x4 x5 x6 x7 x8 x9 x10]
  exact Cert.Sage.affine_eq_affineVec (val_main_v89 (F := Ideal) x0 x1 x2 x3 x4 x5 x6 x7 x8 x9 x10) x11
    (shapeCast _ x12 shapeCasts_S2_S1x2) x12 (fun n => shapeCast_a_1a_apply x12 shapeCasts_S2_S1x2 (0 : Fin 1) n)

end Cert.Sage.Bridge

end
-- ==== Proof.lean ====
/-
  A three-layer mean-aggregation graph network, computed by three tiled kernels among host gathers and scatter-adds,
  against its plain reference: both programs, read over the extended reals, end with equal results.

  Per layer, with h the node features, a the neighbour sums (the sources' features gathered onto the edges and
  scatter-added onto the destinations) and d = max(number of incoming edges, 1):
      reference:  relu( (a / d) @ wl + b + h @ wr )
      kernel:     relu( (a * s) @ wl + b + h @ wr ),  s = 1 / d made once on the host, the rows tiled 4000 at a time,
  and after the third layer the read-out h3 @ wc + bc (inside the third kernel). Over the extended reals a change of
  float format is the identity, a tile-by-tile matrix product into a zero accumulator is the plain sum over the
  contracted index, and x * (1 / d) = x / d for every x once d is not zero — which max(., 1) guarantees. No finiteness
  of the inputs is used: the one law that joins the two sides holds at the infinities too.

  The pieces: `KernelRun` (the kernel program's run with its result named), `Region0/1/2` (each kernel region's
  output array as one whole-array function of what the region finds: a layer's row depends only on the same row of
  its operands, and the 25 row blocks tile the array), `Chain` (the boundary contents walked from the launch memory
  to the result), `KernelPayload` and `RefLayers` (each kernel body, and each stage of the reference, as the layer
  function of `LibSageLayer`), `Bridge` (the two arrangements are one function). The reference's run and the three
  programs' frames are the generated modules'.
-/
import proofs.«139145_j21492016349642_2_alg».proof.Defs
import proofs.«139145_j21492016349642_2_alg».proof.Proof.Gen.Kernel
import proofs.«139145_j21492016349642_2_alg».proof.Proof.Gen.Kernel.Skeleton
import proofs.«139145_j21492016349642_2_alg».proof.Proof.Gen.Kernel.Launch
import proofs.«139145_j21492016349642_2_alg».proof.Proof.Gen.Kernel.Points
import proofs.«139145_j21492016349642_2_alg».proof.Proof.Gen.Kernel.Frame
import proofs.«139145_j21492016349642_2_alg».proof.Proof.Gen.KernelIdeal
import proofs.«139145_j21492016349642_2_alg».proof.Proof.Gen.KernelIdeal.Skeleton
import proofs.«139145_j21492016349642_2_alg».proof.Proof.Gen.KernelIdeal.Launch
import proofs.«139145_j21492016349642_2_alg».proof.Proof.Gen.KernelIdeal.Points
import proofs.«139145_j21492016349642_2_alg».proof.Proof.Gen.KernelIdeal.Frame
import proofs.«139145_j21492016349642_2_alg».proof.Proof.Gen.ReferenceIdeal
import proofs.«139145_j21492016349642_2_alg».proof.Proof.Gen.ReferenceIdeal.Read
import proofs.«139145_j21492016349642_2_alg».proof.Proof.Gen.Pre_finite_inputs
import proofs.«139145_j21492016349642_2_alg».proof.Proof.KernelRun
import proofs.«139145_j21492016349642_2_alg».proof.Proof.Chain
import proofs.«139145_j21492016349642_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories agreeing on the arguments, the kernel program ends with its result array at the three layers and
    the read-out of the arguments (`Chain.out`), and the reference with its result at its last stage of the same
    arguments: one function (`Bridge.result_eq`). -/
theorem algebraic : Cert.algebraic_KernelIdeal_ReferenceIdeal := by
  intro m ρ m' ρ' _ hagree
  refine ⟨fun c => Cert.KernelIdeal.Chain.out m c, ?_, ?_⟩
  · exact (θ_run Cert.KernelIdeal.defs _ _).mono
      (fun r h c => ⟨(h c).1.trans (Cert.KernelIdeal.Chain.w6_out m ρ c), (h c).2⟩)
      (Cert.KernelIdeal.RunValue.run_out m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v93_eq, e0, e1, e2, e3, e4, e5, e6, e7, e8, e9, e10, e11, e12]
    exact (Cert.Sage.Bridge.result_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
